-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S16x1 .f32) (main_arg7 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x512 .f32) (main_arg1 : IVec S2x3200000 32) (main_arg2 : FVec F S512x16 .f32) (main_arg3 : FVec F S16 .f32) (main_arg4 : FVec F S16x16 .f32) (main_arg5 : FVec F S16 .f32) (main_arg6 : FVec F S16x1 .f32) (main_arg7 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S4000x512 : Shape := ⟨2, ![4000, 512]⟩
abbrev S4000x16 : Shape := ⟨2, ![4000, 16]⟩
abbrev S3200000x16 : Shape := ⟨2, ![3200000, 16]⟩
abbrev S1x16 : Shape := ⟨2, ![1, 16]⟩
abbrev S4000x1 : Shape := ⟨2, ![4000, 1]⟩
abbrev S1x1 : Shape := ⟨2, ![1, 1]⟩

abbrev nBuf : Space → Nat
  | .hbm => 99
  | .vmem => 42
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000, .f32⟩
  | .hbm, ⟨42, _⟩ => ⟨S3200000, .f32⟩
  | .hbm, ⟨43, _⟩ => ⟨S100000x16, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x16, .f32⟩
  | .hbm, ⟨53, _⟩ => ⟨S3200000x1, .f32⟩
  | .hbm, ⟨54, _⟩ => ⟨S3200000x16, .f32⟩
  | .hbm, ⟨55, _⟩ => ⟨S3200000x16, .f32⟩
  | .hbm, ⟨56, _⟩ => ⟨S_, .f32⟩
  | .hbm, ⟨57, _⟩ => ⟨S100000x16, .f32⟩
  | .hbm, ⟨58, _⟩ => ⟨S3200000x1, .i32⟩
  | .hbm, ⟨59, _⟩ => ⟨S100000x16, .f32⟩
  | .hbm, ⟨60, _⟩ => ⟨S1x16, .f32⟩
  | .hbm, ⟨61, _⟩ => ⟨S100000x16, .f32⟩
  | .hbm, ⟨62, _⟩ => ⟨S100000x16, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x16, .f32⟩
  | .hbm, ⟨72, _⟩ => ⟨S3200000x1, .f32⟩
  | .hbm, ⟨73, _⟩ => ⟨S3200000x16, .f32⟩
  | .hbm, ⟨74, _⟩ => ⟨S3200000x16, .f32⟩
  | .hbm, ⟨75, _⟩ => ⟨S_, .f32⟩
  | .hbm, ⟨76, _⟩ => ⟨S100000x16, .f32⟩
  | .hbm, ⟨77, _⟩ => ⟨S3200000x1, .i32⟩
  | .hbm, ⟨78, _⟩ => ⟨S100000x16, .f32⟩
  | .hbm, ⟨79, _⟩ => ⟨S1x16, .f32⟩
  | .hbm, ⟨80, _⟩ => ⟨S100000x16, .f32⟩
  | .hbm, ⟨81, _⟩ => ⟨S100000x1, .f32⟩
  | .hbm, ⟨82, _⟩ => ⟨S_, .i32⟩
  | .hbm, ⟨83, _⟩ => ⟨S3200000, .i32⟩
  | .hbm, ⟨84, _⟩ => ⟨S3200000, .i1⟩
  | .hbm, ⟨85, _⟩ => ⟨S_, .i32⟩
  | .hbm, ⟨86, _⟩ => ⟨S3200000, .i32⟩
  | .hbm, ⟨87, _⟩ => ⟨S3200000, .i32⟩
  | .hbm, ⟨88, _⟩ => ⟨S3200000, .i32⟩
  | .hbm, ⟨89, _⟩ => ⟨S3200000x1, .i32⟩
  | .hbm, ⟨90, _⟩ => ⟨S3200000x1, .f32⟩
  | .hbm, ⟨91, _⟩ => ⟨S3200000x1, .f32⟩
  | .hbm, ⟨92, _⟩ => ⟨S3200000x1, .f32⟩
  | .hbm, ⟨93, _⟩ => ⟨S_, .f32⟩
  | .hbm, ⟨94, _⟩ => ⟨S100000x1, .f32⟩
  | .hbm, ⟨95, _⟩ => ⟨S3200000x1, .i32⟩
  | .hbm, ⟨96, _⟩ => ⟨S100000x1, .f32⟩
  | .hbm, ⟨97, _⟩ => ⟨S1x1, .f32⟩
  | .hbm, ⟨98, _⟩ => ⟨S100000x1, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S4000x1, .f32⟩
  | .local _ .vmem, ⟨10, _⟩ => ⟨S4000x1, .f32⟩
  | .local _ .vmem, ⟨11, _⟩ => ⟨S1x16, .f32⟩
  | .local _ .vmem, ⟨12, _⟩ => ⟨S4000x16, .f32⟩
  | .local _ .vmem, ⟨13, _⟩ => ⟨S4000x16, .f32⟩
  | .local _ .vmem, ⟨14, _⟩ => ⟨S4000x16, .f32⟩
  | .local _ .vmem, ⟨15, _⟩ => ⟨S4000x16, .f32⟩
  | .local _ .vmem, ⟨16, _⟩ => ⟨S16x16, .f32⟩
  | .local _ .vmem, ⟨17, _⟩ => ⟨S4000x16, .f32⟩
  | .local _ .vmem, ⟨18, _⟩ => ⟨S4000x16, .f32⟩
  | .local _ .vmem, ⟨19, _⟩ => ⟨S4000x16, .f32⟩
  | .local _ .vmem, ⟨20, _⟩ => ⟨S4000x16, .f32⟩
  | .local _ .vmem, ⟨21, _⟩ => ⟨S4000x16, .f32⟩
  | .local _ .vmem, ⟨22, _⟩ => ⟨S4000x16, .f32⟩
  | .local _ .vmem, ⟨23, _⟩ => ⟨S4000x1, .f32⟩
  | .local _ .vmem, ⟨24, _⟩ => ⟨S4000x1, .f32⟩
  | .local _ .vmem, ⟨25, _⟩ => ⟨S1x16, .f32⟩
  | .local _ .vmem, ⟨26, _⟩ => ⟨S4000x16, .f32⟩
  | .local _ .vmem, ⟨27, _⟩ => ⟨S4000x16, .f32⟩
  | .local _ .vmem, ⟨28, _⟩ => ⟨S4000x16, .f32⟩
  | .local _ .vmem, ⟨29, _⟩ => ⟨S4000x16, .f32⟩
  | .local _ .vmem, ⟨30, _⟩ => ⟨S16x1, .f32⟩
  | .local _ .vmem, ⟨31, _⟩ => ⟨S4000x1, .f32⟩
  | .local _ .vmem, ⟨32, _⟩ => ⟨S4000x1, .f32⟩
  | .local _ .vmem, ⟨33, _⟩ => ⟨S4000x1, .f32⟩
  | .local _ .vmem, ⟨34, _⟩ => ⟨S4000x1, .f32⟩
  | .local _ .vmem, ⟨35, _⟩ => ⟨S4000x1, .f32⟩
  | .local _ .vmem, ⟨36, _⟩ => ⟨S4000x1, .f32⟩
  | .local _ .vmem, ⟨37, _⟩ => ⟨S4000x1, .f32⟩
  | .local _ .vmem, ⟨38, _⟩ => ⟨S4000x1, .f32⟩
  | .local _ .vmem, ⟨39, _⟩ => ⟨S1x1, .f32⟩
  | .local _ .vmem, ⟨40, _⟩ => ⟨S4000x1, .f32⟩
  | .local _ .vmem, ⟨41, _⟩ => ⟨S4000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S4000x512_S512x16_S4000x16_1_0_0_1_n_n_wf : DotDims.WF S4000x512 S512x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S4000x16_S16x16_S4000x16_1_0_0_1_n_n_wf : DotDims.WF S4000x16 S16x16 S4000x16 [1] [0] [0] [1] [] []
  dot_S4000x16_S16x1_S4000x1_1_0_0_1_n_n_wf : DotDims.WF S4000x16 S16x1 S4000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S100000x16.size a
  hwx1_1 : ∀ i : grid1.Coords, EltTy.bits .f32 = 32 ∨ (Rect.block (s := S100000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x16.size a ≤ S100000x16.size a
  hwx1_4 : ∀ i : grid1.Coords, EltTy.bits .f32 = 32 ∨ (Rect.block (s := S100000x16) S4000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S100000x16.size a
  hwx2_2 : ∀ i : grid2.Coords, EltTy.bits .f32 = 32 ∨ (Rect.block (s := S100000x16) S4000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x16.size a ≤ S100000x16.size a
  hwx3_1 : ∀ i : grid3.Coords, EltTy.bits .f32 = 32 ∨ (Rect.block (s := S100000x16) S4000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x16.size a ≤ S100000x16.size a
  hwx3_4 : ∀ i : grid3.Coords, EltTy.bits .f32 = 32 ∨ (Rect.block (s := S100000x16) S4000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x16.size a ≤ S100000x16.size a
  hwx4_0 : ∀ i : grid4.Coords, EltTy.bits .f32 = 32 ∨ (Rect.block (s := S100000x16) S4000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x1.size a ≤ S16x1.size a
  hwx4_1 : ∀ i : grid4.Coords, EltTy.bits .f32 = 32 ∨ (Rect.block (s := S16x1) S16x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x1.size a ≤ S100000x1.size a
  hwx5_0 : ∀ i : grid5.Coords, EltTy.bits .f32 = 32 ∨ (Rect.block (s := S100000x1) S4000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x1.size a ≤ S100000x1.size a
  hwx5_4 : ∀ i : grid5.Coords, EltTy.bits .f32 = 32 ∨ (Rect.block (s := S100000x1) S4000x1.size (cc5_transform_4 i) (hinb5_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def dot_S4000x16_S16x1_S4000x1_1_0_0_1_n_n : DotDims S4000x16 S16x1 S4000x1 where
  lhsContracting := [1]
  rhsContracting := [0]
  lhsNonContracting := [0]
  rhsNonContracting := [1]
  lhsBatch := []
  rhsBatch := []
  wf := dot_S4000x16_S16x1_S4000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S4000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S4000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S4000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S4000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S4000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74) S4000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S3200000x16 : Shape := ⟨2, ![3200000, 16]⟩
abbrev S100000x1 : Shape := ⟨2, ![100000, 1]⟩
abbrev S1x16 : Shape := ⟨2, ![1, 16]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S1x3200000, .i32⟩
  | 9 => ⟨S3200000, .i32⟩
  | 10 => ⟨S1x3200000, .i32⟩
  | 11 => ⟨S3200000, .i32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x16, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x16, .f32⟩
  | 51 => ⟨S3200000x1, .f32⟩
  | 52 => ⟨S3200000x16, .f32⟩
  | 53 => ⟨S3200000x16, .f32⟩
  | 54 => ⟨S_, .f32⟩
  | 55 => ⟨S100000x16, .f32⟩
  | 56 => ⟨S3200000x1, .i32⟩
  | 57 => ⟨S100000x16, .f32⟩
  | 58 => ⟨S100000, .f32⟩
  | 59 => ⟨S100000x1, .f32⟩
  | 60 => ⟨S100000x16, .f32⟩
  | 61 => ⟨S100000x16, .f32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x16, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000, .f32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x16, .f32⟩
  | 98 => ⟨S3200000x1, .f32⟩
  | 99 => ⟨S3200000x16, .f32⟩
  | 100 => ⟨S3200000x16, .f32⟩
  | 101 => ⟨S_, .f32⟩
  | 102 => ⟨S100000x16, .f32⟩
  | 103 => ⟨S3200000x1, .i32⟩
  | 104 => ⟨S100000x16, .f32⟩
  | 105 => ⟨S100000, .f32⟩
  | 106 => ⟨S100000x1, .f32⟩
  | 107 => ⟨S100000x16, .f32⟩
  | 108 => ⟨S100000x16, .f32⟩
  | 109 => ⟨S100000x16, .f32⟩
  | 110 => ⟨S1x16, .f32⟩
  | 111 => ⟨S100000x16, .f32⟩
  | 112 => ⟨S100000x16, .f32⟩
  | 113 => ⟨S_, .f32⟩
  | 114 => ⟨S100000x16, .f32⟩
  | 115 => ⟨S100000x16, .f32⟩
  | 116 => ⟨S100000x1, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S3200000, .f32⟩
  | 126 => ⟨S_, .i32⟩
  | 127 => ⟨S3200000, .i32⟩
  | _ => ⟨S100000x512, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000, .f32⟩
  | 7 => ⟨S3200000, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x1, .f32⟩
  | 17 => ⟨S3200000x1, .f32⟩
  | 18 => ⟨S3200000x1, .f32⟩
  | 19 => ⟨S_, .f32⟩
  | 20 => ⟨S100000x1, .f32⟩
  | 21 => ⟨S3200000x1, .i32⟩
  | 22 => ⟨S100000x1, .f32⟩
  | 23 => ⟨S100000, .f32⟩
  | 24 => ⟨S100000x1, .f32⟩
  | 25 => ⟨S100000x1, .f32⟩
  | 26 => ⟨S100000x1, .f32⟩
  | 27 => ⟨S1x1, .f32⟩
  | 28 => ⟨S100000x1, .f32⟩
  | 29 => ⟨S100000x1, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_21 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3200000x1_S3200000_n_0_0_1_wf : ScatterDims.WF S100000 S3200000x1 S3200000 [] [0] [0] 1
  dot_S100000x512_S512x16_S100000x16_1_0_0_1_n_n_wf : DotDims.WF S100000x512 S512x16 S100000x16 [1] [0] [0] [1] [] []
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.KernelRun.lean ====
/-
  The idealized kernel's run with its result named.

  The program is six pipelined regions among four stretches of host operations. Its run ends with every unscoped
  buffer at the last segment boundary's contents: the fold of the host stretches and of the regions' write-backs
  over the launch memory. Read at the result buffer this names the result; read at the argument buffers it gives
  the launch contents back.
-/
import proofs.«143976_j37632503448199_1_alg».proof.Proof.Gen.KernelIdeal.Frame

set_option maxRecDepth 16384

noncomputable section

namespace Cert.KernelIdeal.RunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunNamed

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.Pay.lean ====
/-
  The six kernel bodies' stored values, read at an entry of the tile.

  Three bodies are products of a 4000-row block with a whole weight matrix (contraction lengths 512, 16, 16; 16, 16
  and 1 columns). Three are the closing pass of a graph-convolution layer on a 4000-row block:
  neighbour sum + feature * own weight + bias, the first two cut below at zero.
-/
import proofs.«143976_j37632503448199_1_alg».proof.Proof.Gen.KernelIdeal.Skeleton
import proofs.«143976_j37632503448199_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- A tile of the product of region 0: entry (p, q) of the block is the sum over the contracted axis of the left
    block's row p times the right operand's column q (the narrowing to bf16 is the identity on extended reals, and
    the accumulator starts at zero). -/
theorem pay0 (x0 : Vec Ideal S4000x512 .f32) (x1 : Vec Ideal S512x16 .f32) (p : Fin 4000) (q : Fin 16) :
    k0_pay1 x0 x1 (ix2 p q) = ∑ k : Fin 512, x0 (ix2 p k) * x1 (ix2 k q) := by
  unfold k0_pay1

  refine (Cert.LibPlainDot.matmul_zero_apply dot_S4000x512_S512x16_S4000x16_1_0_0_1_n_n none 512 rfl rfl _ _ (ix2 p q)
    (fun k => ix2 p k) (fun k => ix2 k q) (fun r => ?_) (fun r => ?_)).trans rfl
  · funext a; apply Fin.ext
    match a with
    | ⟨0, _⟩ =>
      show (dot_S4000x512_S512x16_S4000x16_1_0_0_1_n_n.lhsIdx (ix2 p q) r 0).val = p.val
      unfold DotDims.lhsIdx
      rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
      rfl
    | ⟨1, _⟩ => exact dot_S4000x512_S512x16_S4000x16_1_0_0_1_n_n.lhsIdx_val_of_single rfl (ix2 p q) r
  · funext a; apply Fin.ext
    match a with
    | ⟨0, _⟩ => exact dot_S4000x512_S512x16_S4000x16_1_0_0_1_n_n.rhsIdx_val_of_single rfl (ix2 p q) r
    | ⟨1, _⟩ =>
      show (dot_S4000x512_S512x16_S4000x16_1_0_0_1_n_n.rhsIdx (ix2 p q) r 1).val = q.val
      unfold DotDims.rhsIdx
      rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
      rfl

/-- A tile of the layer's closing pass in region 1: entry (p, q) is the neighbour sum plus the projected feature
    scaled by the node's own weight plus the bias of column q, cut below at zero. The weight is a column read at
    (p, 0) and the bias a row read at (0, q). -/
theorem pay1 (x0 x1 : Vec Ideal S4000x16 .f32) (x2 : Vec Ideal S4000x1 .f32) (x3 : Vec Ideal S1x16 .f32) (p : Fin 4000) (q : Fin 16) :
    k1_pay1 x0 x1 x2 x3 (ix2 p q)
      = max (x0 (ix2 p q) + x1 (ix2 p q) * x2 (ix2 p 0) + x3 (ix2 0 q)) (Ideal.ofBits .f32 0x00000000#32) := by
  unfold k1_pay1
  simp only [shapeCast_self]
  have e2 : broadcastTo S4000x16 x2 broadcasts_S4000x1_S4000x16 (ix2 p q) = x2 (ix2 p 0) :=
    broadcastTo_apply x2 broadcasts_S4000x1_S4000x16 (ix2 p q) (ix2 p 0) (fun a => match a with
      | ⟨0, _⟩ => by show p.val = if (4000 : Nat) = 1 then 0 else p.val; rw [if_neg (by decide)]
      | ⟨1, _⟩ => by show (0 : Nat) = if (1 : Nat) = 1 then 0 else q.val; rw [if_pos rfl])
  have e3 : broadcastTo S4000x16 x3 broadcasts_S1x16_S4000x16 (ix2 p q) = x3 (ix2 0 q) :=
    broadcastTo_apply x3 broadcasts_S1x16_S4000x16 (ix2 p q) (ix2 0 q) (fun a => match a with
      | ⟨0, _⟩ => by show (0 : Nat) = if (1 : Nat) = 1 then 0 else p.val; rw [if_pos rfl]
      | ⟨1, _⟩ => by show q.val = if (16 : Nat) = 1 then 0 else q.val; rw [if_neg (by decide)])
  show max (x0 (ix2 p q) + x1 (ix2 p q) * broadcastTo S4000x16 x2 broadcasts_S4000x1_S4000x16 (ix2 p q)
      + broadcastTo S4000x16 x3 broadcasts_S1x16_S4000x16 (ix2 p q)) _ = _
  rw [e2, e3]
  rfl

/-- A tile of the product of region 2: entry (p, q) of the block is the sum over the contracted axis of the left
    block's row p times the right operand's column q (the narrowing to bf16 is the identity on extended reals, and
    the accumulator starts at zero). -/
theorem pay2 (x0 : Vec Ideal S4000x16 .f32) (x1 : Vec Ideal S16x16 .f32) (p : Fin 4000) (q : Fin 16) :
    k2_pay1 x0 x1 (ix2 p q) = ∑ k : Fin 16, x0 (ix2 p k) * x1 (ix2 k q) := by
  unfold k2_pay1
  simp only [shapeCast_self]
  refine (Cert.LibPlainDot.matmul_zero_apply dot_S4000x16_S16x16_S4000x16_1_0_0_1_n_n none 16 rfl rfl _ _ (ix2 p q)
    (fun k => ix2 p k) (fun k => ix2 k q) (fun r => ?_) (fun r => ?_)).trans rfl
  · funext a; apply Fin.ext
    match a with
    | ⟨0, _⟩ =>
      show (dot_S4000x16_S16x16_S4000x16_1_0_0_1_n_n.lhsIdx (ix2 p q) r 0).val = p.val
      unfold DotDims.lhsIdx
      rw [dif_neg (show ¬(0 : Fin S4000x16.rank) ∈ dot_S4000x16_S16x16_S4000x16_1_0_0_1_n_n.lhsBatch by decide), dif_pos (show (0 : Fin S4000x16.rank) ∈ dot_S4000x16_S16x16_S4000x16_1_0_0_1_n_n.lhsNonContracting by decide)]
      rfl
    | ⟨1, _⟩ => exact dot_S4000x16_S16x16_S4000x16_1_0_0_1_n_n.lhsIdx_val_of_single rfl (ix2 p q) r
  · funext a; apply Fin.ext
    match a with
    | ⟨0, _⟩ => exact dot_S4000x16_S16x16_S4000x16_1_0_0_1_n_n.rhsIdx_val_of_single rfl (ix2 p q) r
    | ⟨1, _⟩ =>
      show (dot_S4000x16_S16x16_S4000x16_1_0_0_1_n_n.rhsIdx (ix2 p q) r 1).val = q.val
      unfold DotDims.rhsIdx
      rw [dif_neg (show ¬(1 : Fin S16x16.rank) ∈ dot_S4000x16_S16x16_S4000x16_1_0_0_1_n_n.rhsBatch by decide), dif_pos (show (1 : Fin S16x16.rank) ∈ dot_S4000x16_S16x16_S4000x16_1_0_0_1_n_n.rhsNonContracting by decide)]
      rfl

/-- A tile of the layer's closing pass in region 3: entry (p, q) is the neighbour sum plus the projected feature
    scaled by the node's own weight plus the bias of column q, cut below at zero. The weight is a column read at
    (p, 0) and the bias a row read at (0, q). -/
theorem pay3 (x0 x1 : Vec Ideal S4000x16 .f32) (x2 : Vec Ideal S4000x1 .f32) (x3 : Vec Ideal S1x16 .f32) (p : Fin 4000) (q : Fin 16) :
    k3_pay1 x0 x1 x2 x3 (ix2 p q)
      = max (x0 (ix2 p q) + x1 (ix2 p q) * x2 (ix2 p 0) + x3 (ix2 0 q)) (Ideal.ofBits .f32 0x00000000#32) := by
  unfold k3_pay1
  simp only [shapeCast_self]
  have e2 : broadcastTo S4000x16 x2 broadcasts_S4000x1_S4000x16 (ix2 p q) = x2 (ix2 p 0) :=
    broadcastTo_apply x2 broadcasts_S4000x1_S4000x16 (ix2 p q) (ix2 p 0) (fun a => match a with
      | ⟨0, _⟩ => by show p.val = if (4000 : Nat) = 1 then 0 else p.val; rw [if_neg (by decide)]
      | ⟨1, _⟩ => by show (0 : Nat) = if (1 : Nat) = 1 then 0 else q.val; rw [if_pos rfl])
  have e3 : broadcastTo S4000x16 x3 broadcasts_S1x16_S4000x16 (ix2 p q) = x3 (ix2 0 q) :=
    broadcastTo_apply x3 broadcasts_S1x16_S4000x16 (ix2 p q) (ix2 0 q) (fun a => match a with
      | ⟨0, _⟩ => by show (0 : Nat) = if (1 : Nat) = 1 then 0 else p.val; rw [if_pos rfl]
      | ⟨1, _⟩ => by show q.val = if (16 : Nat) = 1 then 0 else q.val; rw [if_neg (by decide)])
  show max (x0 (ix2 p q) + x1 (ix2 p q) * broadcastTo S4000x16 x2 broadcasts_S4000x1_S4000x16 (ix2 p q)
      + broadcastTo S4000x16 x3 broadcasts_S1x16_S4000x16 (ix2 p q)) _ = _
  rw [e2, e3]
  rfl

/-- A tile of the product of region 4: entry (p, q) of the block is the sum over the contracted axis of the left
    block's row p times the right operand's column q (the narrowing to bf16 is the identity on extended reals, and
    the accumulator starts at zero). -/
theorem pay4 (x0 : Vec Ideal S4000x16 .f32) (x1 : Vec Ideal S16x1 .f32) (p : Fin 4000) (q : Fin 1) :
    k4_pay1 x0 x1 (ix2 p q) = ∑ k : Fin 16, x0 (ix2 p k) * x1 (ix2 k q) := by
  unfold k4_pay1
  simp only [shapeCast_self]
  refine (Cert.LibPlainDot.matmul_zero_apply dot_S4000x16_S16x1_S4000x1_1_0_0_1_n_n none 16 rfl rfl _ _ (ix2 p q)
    (fun k => ix2 p k) (fun k => ix2 k q) (fun r => ?_) (fun r => ?_)).trans rfl
  · funext a; apply Fin.ext
    match a with
    | ⟨0, _⟩ =>
      show (dot_S4000x16_S16x1_S4000x1_1_0_0_1_n_n.lhsIdx (ix2 p q) r 0).val = p.val
      unfold DotDims.lhsIdx
      rw [dif_neg (show ¬(0 : Fin S4000x16.rank) ∈ dot_S4000x16_S16x1_S4000x1_1_0_0_1_n_n.lhsBatch by decide), dif_pos (show (0 : Fin S4000x16.rank) ∈ dot_S4000x16_S16x1_S4000x1_1_0_0_1_n_n.lhsNonContracting by decide)]
      rfl
    | ⟨1, _⟩ => exact dot_S4000x16_S16x1_S4000x1_1_0_0_1_n_n.lhsIdx_val_of_single rfl (ix2 p q) r
  · funext a; apply Fin.ext
    match a with
    | ⟨0, _⟩ => exact dot_S4000x16_S16x1_S4000x1_1_0_0_1_n_n.rhsIdx_val_of_single rfl (ix2 p q) r
    | ⟨1, _⟩ =>
      show (dot_S4000x16_S16x1_S4000x1_1_0_0_1_n_n.rhsIdx (ix2 p q) r 1).val = q.val
      unfold DotDims.rhsIdx
      rw [dif_neg (show ¬(1 : Fin S16x1.rank) ∈ dot_S4000x16_S16x1_S4000x1_1_0_0_1_n_n.rhsBatch by decide), dif_pos (show (1 : Fin S16x1.rank) ∈ dot_S4000x16_S16x1_S4000x1_1_0_0_1_n_n.rhsNonContracting by decide)]
      rfl

/-- A tile of the last layer's closing pass (one column, no cut at zero): entry (p, 0) is the neighbour sum plus the
    projected feature scaled by the node's own weight plus the one bias. -/
theorem pay5 (x0 x1 x2 : Vec Ideal S4000x1 .f32) (x3 : Vec Ideal S1x1 .f32) (p : Fin 4000) (q : Fin 1) :
    k5_pay1 x0 x1 x2 x3 (ix2 p q) = x0 (ix2 p q) + x1 (ix2 p q) * x2 (ix2 p q) + x3 (ix2 0 0) := by
  unfold k5_pay1
  simp only [shapeCast_self]
  have e3 : broadcastTo S4000x1 x3 broadcasts_S1x1_S4000x1 (ix2 p q) = x3 (ix2 0 0) :=
    broadcastTo_apply x3 broadcasts_S1x1_S4000x1 (ix2 p q) (ix2 0 0) (fun a => match a with
      | ⟨0, _⟩ => by show (0 : Nat) = if (1 : Nat) = 1 then 0 else p.val; rw [if_pos rfl]
      | ⟨1, _⟩ => by show (0 : Nat) = if (1 : Nat) = 1 then 0 else q.val; rw [if_pos rfl])
  show x0 (ix2 p q) + x1 (ix2 p q) * x2 (ix2 p q) + broadcastTo S4000x1 x3 broadcasts_S1x1_S4000x1 (ix2 p q) = _
  rw [e3]

end Cert.KernelIdeal.Payload

end
-- ==== Proof.Region0.lean ====
/-
  Region 0: a [100000, 512] array times a [512, 16] weight matrix, 4000 rows per grid point, 25 points.

  Point t reads rows 4000 t … 4000 t + 3999 of the left array and the whole weight matrix, and writes the same rows of
  the product. Each entry (r, q) of the product is the sum over k of left (r, k) * weight (k, q): row r's block is
  point r / 4000, so the blocks cover the array and the array after the region is the product, whatever it held.
-/
import proofs.«143976_j37632503448199_1_alg».proof.Proof.Gen.KernelIdeal.Frame
import proofs.«143976_j37632503448199_1_alg».proof.Proof.Pay
import Idealize.ShloMosaic.Lib.ValueIdx
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents the region is entered with: a parameter
variable (V : (c : Dev nD) → (b : Ref sig .tc) → Buf (Elt Ideal) ((c : Thread nD τ).loc b))

theorem hz : (![0, 0] : Fin 2 → Nat) = fun _ => 0 := funext fun a => by fin_cases a <;> rfl

/-- The product, entry by entry. -/
def prod (X : S100000x512.Idx → Elt Ideal .f32) (Wt : S512x16.Idx → Elt Ideal .f32) : S100000x16.Idx → Elt Ideal .f32 :=
  fun i => ∑ k : Fin 512, X (ix2 (⟨(i 0).val, (i 0).isLt⟩ : Fin 100000) k) * Wt (ix2 k (⟨(i 1).val, (i 1).isLt⟩ : Fin 16))

/-- The windows' block indices over the grid: the row-blocked windows sit at block row t, the weight at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the output is some point's. -/
theorem idx_onto : ∀ (q0 : Fin 25), ∃ t : Fin cfg0.N, win0_2.index t = ![q0.val, 0] :=
  (by decide +kernel : ∀ (q0 : Fin 25), ∃ t : Fin grid0.N, win0_2.index t = ![q0.val, 0])

/-- What point t writes back is block t of the product of the arrays the region is entered with. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x16) hz]
  obtain ⟨e0, e1, e2, e3, e4, e5⟩ := idx_facts t
  refine funext fun (j : S4000x16.Idx) => ?_
  obtain ⟨p, q, rfl⟩ : ∃ (p : Fin 4000) (q : Fin 16), j = ix2 p q := ⟨j 0, j 1, eq_ix2 j⟩
  show k0_pay1 (iblk0 V c 0 t) (iblk0 V c 1 t) (ix2 p q) = prod (V c main_arg0) (V c main_arg2) (((cfg0.win 2).blk t).view.emb (ix2 p q))
  refine (Payload.pay0 _ _ p q).trans ?_
  unfold prod
  refine Finset.sum_congr rfl fun k _ => ?_
  have h0 : iblk0 V c 0 t (ix2 p k) = V c main_arg0 (ix2 (⟨((((cfg0.win 2).blk t).view.emb (ix2 p q)) 0).val, ((((cfg0.win 2).blk t).view.emb (ix2 p q)) 0).isLt⟩ : Fin 100000) k) := by
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 512 + 1 * k.val = k.val; omega
  have h1 : iblk0 V c 1 t (ix2 k q) = V c main_arg2 (ix2 k (⟨((((cfg0.win 2).blk t).view.emb (ix2 p q)) 1).val, ((((cfg0.win 2).blk t).view.emb (ix2 p q)) 1).isLt⟩ : Fin 16)) := by
    show V c main_arg2 (((cfg0.win 1).blk t).view.emb (ix2 k q)) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  rw [h0, h1]

/-- An index of the output array is in point t's block iff each coordinate is in the block's range. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v28).slice (win0_2.rect t)).set ↔ _
  rw [View.set_slice_whole, Rect.mem_set_unit]
  exact Iff.rfl

/-- Row r lies in the block of point r / 4000: the blocks cover the output array. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- The output array after the region is the product of the arrays the region is entered with. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Region0

end
-- ==== Proof.Region1.lean ====
/-
  Region 1: the closing pass of a graph-convolution layer on [100000, 16] arrays, 4000 rows per grid point.

  Point t reads rows 4000 t … 4000 t + 3999 of the neighbour sums, of the projected features and of the column of
  the nodes' own weights, and the whole bias row, and writes the same rows of
  neighbour sum + feature * own weight + bias, cut below at zero. Entry (r, q) depends on entry (r, q) of the first two
  arrays, on the weight of node r and on the bias of column q; row r's block is point r / 4000.
-/
import proofs.«143976_j37632503448199_1_alg».proof.Proof.Gen.KernelIdeal.Frame
import proofs.«143976_j37632503448199_1_alg».proof.Proof.Pay
import Idealize.ShloMosaic.Lib.ValueIdx
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents the region is entered with: a parameter
variable (V : (c : Dev nD) → (b : Ref sig .tc) → Buf (Elt Ideal) ((c : Thread nD τ).loc b))

theorem hz : (![0, 0] : Fin 2 → Nat) = fun _ => 0 := funext fun a => by fin_cases a <;> rfl

/-- The closing pass, entry by entry: the weight is a column read at (r, 0), the bias a row read at (0, q). -/
def close (AGG H : S100000x16.Idx → Elt Ideal .f32) (D : S100000x1.Idx → Elt Ideal .f32) (B : S1x16.Idx → Elt Ideal .f32) :
    S100000x16.Idx → Elt Ideal .f32 :=
  fun i => max (AGG i + H i * D (ix2 (⟨(i 0).val, (i 0).isLt⟩ : Fin 100000) (0 : Fin 1)) + B (ix2 (0 : Fin 1) (⟨(i 1).val, (i 1).isLt⟩ : Fin 16))) (Ideal.ofBits .f32 0x00000000#32)

/-- The windows' block indices over the grid: the row-blocked windows sit at block row t, the bias row at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block row of the output is some point's. -/
theorem idx_onto : ∀ (q0 : Fin 25), ∃ t : Fin cfg1.N, win1_4.index t = ![q0.val, 0] :=
  (by decide +kernel : ∀ (q0 : Fin 25), ∃ t : Fin grid1.N, win1_4.index t = ![q0.val, 0])

/-- What point t writes back is block t of the closing pass of the arrays the region is entered with. -/
theorem flushed_eq (c : Dev nD) (t : Fin cfg1.N) :
    (dat1 V c).flushed 4 t = ((cfg1.win 4).blk t).view.read (Elt Ideal) (close (V c main_v41) (V c main_v28) (V c main_v12) (V c main_v42)) := by
  show (cfg1.win 4).cut (grid1.coords t) ((dat1 V c).after 4 t) = _
  rw [after1_4]
  unfold out1_4
  rw [View.canon_unit_zero hz]
  simp only [View.ld_unit_zero (S := S4000x16) hz, View.ld_unit_zero (S := S4000x1) hz, View.ld_unit_zero (S := S1x16) hz]
  obtain ⟨e0, e1, e2, e3, e4, e5, e6, e7, e8, e9⟩ := idx_facts t
  refine funext fun (j : S4000x16.Idx) => ?_
  obtain ⟨p, q, rfl⟩ : ∃ (p : Fin 4000) (q : Fin 16), j = ix2 p q := ⟨j 0, j 1, eq_ix2 j⟩
  show k1_pay1 (iblk1 V c 0 t) (iblk1 V c 1 t) (iblk1 V c 2 t) (iblk1 V c 3 t) (ix2 p q)
    = close (V c main_v41) (V c main_v28) (V c main_v12) (V c main_v42) (((cfg1.win 4).blk t).view.emb (ix2 p q))
  refine (Payload.pay1 _ _ _ _ p q).trans ?_
  unfold close
  have h0 : iblk1 V c 0 t (ix2 p q) = V c main_v41 (((cfg1.win 4).blk t).view.emb (ix2 p q)) := by
    show V c main_v41 (((cfg1.win 0).blk t).view.emb (ix2 p q)) = _
    refine congrArg (V c main_v41) (funext fun a => Fin.ext ?_)
    match a with
    | ⟨0, _⟩ => show win1_0.index t (0 : Fin 2) * 4000 + 1 * p.val = win1_4.index t (0 : Fin 2) * 4000 + 1 * p.val; omega
    | ⟨1, _⟩ => show win1_0.index t (1 : Fin 2) * 16 + 1 * q.val = win1_4.index t (1 : Fin 2) * 16 + 1 * q.val; omega
  have h1 : iblk1 V c 1 t (ix2 p q) = V c main_v28 (((cfg1.win 4).blk t).view.emb (ix2 p q)) := by
    show V c main_v28 (((cfg1.win 1).blk t).view.emb (ix2 p q)) = _
    refine congrArg (V c main_v28) (funext fun a => Fin.ext ?_)
    match a with
    | ⟨0, _⟩ => show win1_1.index t (0 : Fin 2) * 4000 + 1 * p.val = win1_4.index t (0 : Fin 2) * 4000 + 1 * p.val; omega
    | ⟨1, _⟩ => show win1_1.index t (1 : Fin 2) * 16 + 1 * q.val = win1_4.index t (1 : Fin 2) * 16 + 1 * q.val; omega
  have h2 : iblk1 V c 2 t (ix2 p (0 : Fin 1)) = V c main_v12 (ix2 (⟨((((cfg1.win 4).blk t).view.emb (ix2 p q)) 0).val, ((((cfg1.win 4).blk t).view.emb (ix2 p q)) 0).isLt⟩ : Fin 100000) (0 : Fin 1)) := by
    show V c main_v12 (((cfg1.win 2).blk t).view.emb (ix2 p (0 : Fin 1))) = _
    refine congrArg (V c main_v12) (funext fun a => Fin.ext ?_)
    match a with
    | ⟨0, _⟩ => show win1_2.index t (0 : Fin 2) * 4000 + 1 * p.val = win1_4.index t (0 : Fin 2) * 4000 + 1 * p.val; omega
    | ⟨1, _⟩ => show win1_2.index t (1 : Fin 2) * 1 + 1 * 0 = 0; omega
  have h3 : iblk1 V c 3 t (ix2 (0 : Fin 1) q) = V c main_v42 (ix2 (0 : Fin 1) (⟨((((cfg1.win 4).blk t).view.emb (ix2 p q)) 1).val, ((((cfg1.win 4).blk t).view.emb (ix2 p q)) 1).isLt⟩ : Fin 16)) := by
    show V c main_v42 (((cfg1.win 3).blk t).view.emb (ix2 (0 : Fin 1) q)) = _
    refine congrArg (V c main_v42) (funext fun a => Fin.ext ?_)
    match a with
    | ⟨0, _⟩ => show win1_3.index t (0 : Fin 2) * 1 + 1 * 0 = 0; omega
    | ⟨1, _⟩ => show win1_3.index t (1 : Fin 2) * 16 + 1 * q.val = win1_4.index t (1 : Fin 2) * 16 + 1 * q.val; omega
  rw [h0, h1, h2, h3]

/-- An index of the output array is in point t's block iff each coordinate is in the block's range. -/
theorem mem_blk (t : Fin cfg1.N) (i : S100000x16.Idx) :
    i ∈ ((cfg1.win 4).blk t).view.set ↔ ∀ a : Fin 2, win1_4.index t a * S4000x16.size a ≤ (i a).val ∧ (i a).val < win1_4.index t a * S4000x16.size a + S4000x16.size a := by
  show i ∈ ((View.whole main_v43).slice (win1_4.rect t)).set ↔ _
  rw [View.set_slice_whole, Rect.mem_set_unit]
  exact Iff.rfl

/-- Row r lies in the block of point r / 4000: the blocks cover the output array. -/
theorem cover (i : S100000x16.Idx) : ∃ t : Fin cfg1.N, (cfg1.win 4).flush t = true ∧ i ∈ ((cfg1.win 4).blk t).view.set := by
  have hi0 : (i 0).val < 100000 := (i 0).isLt
  have hi1 : (i 1).val < 16 := (i 1).isLt
  obtain ⟨t, ht⟩ := idx_onto ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 16 ≤ (i 1).val ∧ (i 1).val < win1_4.index t (1 : Fin 2) * 16 + 16; omega

/-- The output array after the region is the closing pass of the arrays the region is entered with. -/
theorem final (c : Dev nD) : (dat1 V c).arrAt 4 cfg1.N = close (V c main_v41) (V c main_v28) (V c main_v12) (V c main_v42) :=
  (dat1 V c).arrAt_eq_of_cover 4 (close (V c main_v41) (V c main_v28) (V c main_v12) (V c main_v42)) (fun t _ => flushed_eq V c t) cover

end Cert.KernelIdeal.Region1

end
-- ==== Proof.Region2.lean ====
/-
  Region 2: a [100000, 16] array times a [16, 16] weight matrix, 4000 rows per grid point, 25 points.

  Point t reads rows 4000 t … 4000 t + 3999 of the left array and the whole weight matrix, and writes the same rows of
  the product. Each entry (r, q) of the product is the sum over k of left (r, k) * weight (k, q): row r's block is
  point r / 4000, so the blocks cover the array and the array after the region is the product, whatever it held.
-/
import proofs.«143976_j37632503448199_1_alg».proof.Proof.Gen.KernelIdeal.Frame
import proofs.«143976_j37632503448199_1_alg».proof.Proof.Pay
import Idealize.ShloMosaic.Lib.ValueIdx
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents the region is entered with: a parameter
variable (V : (c : Dev nD) → (b : Ref sig .tc) → Buf (Elt Ideal) ((c : Thread nD τ).loc b))

theorem hz : (![0, 0] : Fin 2 → Nat) = fun _ => 0 := funext fun a => by fin_cases a <;> rfl

/-- The product, entry by entry. -/
def prod (X : S100000x16.Idx → Elt Ideal .f32) (Wt : S16x16.Idx → Elt Ideal .f32) : S100000x16.Idx → Elt Ideal .f32 :=
  fun i => ∑ k : Fin 16, X (ix2 (⟨(i 0).val, (i 0).isLt⟩ : Fin 100000) k) * Wt (ix2 k (⟨(i 1).val, (i 1).isLt⟩ : Fin 16))

/-- The windows' block indices over the grid: the row-blocked windows sit at block row t, the weight at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row of the output is some point's. -/
theorem idx_onto : ∀ (q0 : Fin 25), ∃ t : Fin cfg2.N, win2_2.index t = ![q0.val, 0] :=
  (by decide +kernel : ∀ (q0 : Fin 25), ∃ t : Fin grid2.N, win2_2.index t = ![q0.val, 0])

/-- What point t writes back is block t of the product of the arrays the region is entered with. -/
theorem flushed_eq (c : Dev nD) (t : Fin cfg2.N) :
    (dat2 V c).flushed 2 t = ((cfg2.win 2).blk t).view.read (Elt Ideal) (prod (V c main_v43) (V c main_arg4)) := by
  show (cfg2.win 2).cut (grid2.coords t) ((dat2 V c).after 2 t) = _
  rw [after2_2]
  unfold out2_2
  rw [View.canon_unit_zero hz]
  simp only [View.ld_unit_zero (S := S4000x16) hz, View.ld_unit_zero (S := S16x16) hz]
  obtain ⟨e0, e1, e2, e3, e4, e5⟩ := idx_facts t
  refine funext fun (j : S4000x16.Idx) => ?_
  obtain ⟨p, q, rfl⟩ : ∃ (p : Fin 4000) (q : Fin 16), j = ix2 p q := ⟨j 0, j 1, eq_ix2 j⟩
  show k2_pay1 (iblk2 V c 0 t) (iblk2 V c 1 t) (ix2 p q) = prod (V c main_v43) (V c main_arg4) (((cfg2.win 2).blk t).view.emb (ix2 p q))
  refine (Payload.pay2 _ _ p q).trans ?_
  unfold prod
  refine Finset.sum_congr rfl fun k _ => ?_
  have h0 : iblk2 V c 0 t (ix2 p k) = V c main_v43 (ix2 (⟨((((cfg2.win 2).blk t).view.emb (ix2 p q)) 0).val, ((((cfg2.win 2).blk t).view.emb (ix2 p q)) 0).isLt⟩ : Fin 100000) k) := by
    show V c main_v43 (((cfg2.win 0).blk t).view.emb (ix2 p k)) = _
    refine congrArg (V c main_v43) (funext fun a => Fin.ext ?_)
    match a with
    | ⟨0, _⟩ => show win2_0.index t (0 : Fin 2) * 4000 + 1 * p.val = win2_2.index t (0 : Fin 2) * 4000 + 1 * p.val; omega
    | ⟨1, _⟩ => show win2_0.index t (1 : Fin 2) * 16 + 1 * k.val = k.val; omega
  have h1 : iblk2 V c 1 t (ix2 k q) = V c main_arg4 (ix2 k (⟨((((cfg2.win 2).blk t).view.emb (ix2 p q)) 1).val, ((((cfg2.win 2).blk t).view.emb (ix2 p q)) 1).isLt⟩ : Fin 16)) := by
    show V c main_arg4 (((cfg2.win 1).blk t).view.emb (ix2 k q)) = _
    refine congrArg (V c main_arg4) (funext fun a => Fin.ext ?_)
    match a with
    | ⟨0, _⟩ => show win2_1.index t (0 : Fin 2) * 16 + 1 * k.val = k.val; omega
    | ⟨1, _⟩ => show win2_1.index t (1 : Fin 2) * 16 + 1 * q.val = win2_2.index t (1 : Fin 2) * 16 + 1 * q.val; omega
  rw [h0, h1]

/-- An index of the output array is in point t's block iff each coordinate is in the block's range. -/
theorem mem_blk (t : Fin cfg2.N) (i : S100000x16.Idx) :
    i ∈ ((cfg2.win 2).blk t).view.set ↔ ∀ a : Fin 2, win2_2.index t a * S4000x16.size a ≤ (i a).val ∧ (i a).val < win2_2.index t a * S4000x16.size a + S4000x16.size a := by
  show i ∈ ((View.whole main_v44).slice (win2_2.rect t)).set ↔ _
  rw [View.set_slice_whole, Rect.mem_set_unit]
  exact Iff.rfl

/-- Row r lies in the block of point r / 4000: the blocks cover the output array. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 16 ≤ (i 1).val ∧ (i 1).val < win2_2.index t (1 : Fin 2) * 16 + 16; omega

/-- The output array after the region is the product of the arrays the region is entered with. -/
theorem final (c : Dev nD) : (dat2 V c).arrAt 2 cfg2.N = prod (V c main_v43) (V c main_arg4) :=
  (dat2 V c).arrAt_eq_of_cover 2 (prod (V c main_v43) (V c main_arg4)) (fun t _ => flushed_eq V c t) cover

end Cert.KernelIdeal.Region2

end
-- ==== Proof.Region3.lean ====
/-
  Region 3: the closing pass of a graph-convolution layer on [100000, 16] arrays, 4000 rows per grid point.

  Point t reads rows 4000 t … 4000 t + 3999 of the neighbour sums, of the projected features and of the column of
  the nodes' own weights, and the whole bias row, and writes the same rows of
  neighbour sum + feature * own weight + bias, cut below at zero. Entry (r, q) depends on entry (r, q) of the first two
  arrays, on the weight of node r and on the bias of column q; row r's block is point r / 4000.
-/
import proofs.«143976_j37632503448199_1_alg».proof.Proof.Gen.KernelIdeal.Frame
import proofs.«143976_j37632503448199_1_alg».proof.Proof.Pay
import Idealize.ShloMosaic.Lib.ValueIdx
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents the region is entered with: a parameter
variable (V : (c : Dev nD) → (b : Ref sig .tc) → Buf (Elt Ideal) ((c : Thread nD τ).loc b))

theorem hz : (![0, 0] : Fin 2 → Nat) = fun _ => 0 := funext fun a => by fin_cases a <;> rfl

/-- The closing pass, entry by entry: the weight is a column read at (r, 0), the bias a row read at (0, q). -/
def close (AGG H : S100000x16.Idx → Elt Ideal .f32) (D : S100000x1.Idx → Elt Ideal .f32) (B : S1x16.Idx → Elt Ideal .f32) :
    S100000x16.Idx → Elt Ideal .f32 :=
  fun i => max (AGG i + H i * D (ix2 (⟨(i 0).val, (i 0).isLt⟩ : Fin 100000) (0 : Fin 1)) + B (ix2 (0 : Fin 1) (⟨(i 1).val, (i 1).isLt⟩ : Fin 16))) (Ideal.ofBits .f32 0x00000000#32)

/-- The windows' block indices over the grid: the row-blocked windows sit at block row t, the bias row at (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every block row of the output is some point's. -/
theorem idx_onto : ∀ (q0 : Fin 25), ∃ t : Fin cfg3.N, win3_4.index t = ![q0.val, 0] :=
  (by decide +kernel : ∀ (q0 : Fin 25), ∃ t : Fin grid3.N, win3_4.index t = ![q0.val, 0])

/-- What point t writes back is block t of the closing pass of the arrays the region is entered with. -/
theorem flushed_eq (c : Dev nD) (t : Fin cfg3.N) :
    (dat3 V c).flushed 4 t = ((cfg3.win 4).blk t).view.read (Elt Ideal) (close (V c main_v57) (V c main_v44) (V c main_v12) (V c main_v58)) := by
  show (cfg3.win 4).cut (grid3.coords t) ((dat3 V c).after 4 t) = _
  rw [after3_4]
  unfold out3_4
  rw [View.canon_unit_zero hz]
  simp only [View.ld_unit_zero (S := S4000x16) hz, View.ld_unit_zero (S := S4000x1) hz, View.ld_unit_zero (S := S1x16) hz]
  obtain ⟨e0, e1, e2, e3, e4, e5, e6, e7, e8, e9⟩ := idx_facts t
  refine funext fun (j : S4000x16.Idx) => ?_
  obtain ⟨p, q, rfl⟩ : ∃ (p : Fin 4000) (q : Fin 16), j = ix2 p q := ⟨j 0, j 1, eq_ix2 j⟩
  show k3_pay1 (iblk3 V c 0 t) (iblk3 V c 1 t) (iblk3 V c 2 t) (iblk3 V c 3 t) (ix2 p q)
    = close (V c main_v57) (V c main_v44) (V c main_v12) (V c main_v58) (((cfg3.win 4).blk t).view.emb (ix2 p q))
  refine (Payload.pay3 _ _ _ _ p q).trans ?_
  unfold close
  have h0 : iblk3 V c 0 t (ix2 p q) = V c main_v57 (((cfg3.win 4).blk t).view.emb (ix2 p q)) := by
    show V c main_v57 (((cfg3.win 0).blk t).view.emb (ix2 p q)) = _
    refine congrArg (V c main_v57) (funext fun a => Fin.ext ?_)
    match a with
    | ⟨0, _⟩ => show win3_0.index t (0 : Fin 2) * 4000 + 1 * p.val = win3_4.index t (0 : Fin 2) * 4000 + 1 * p.val; omega
    | ⟨1, _⟩ => show win3_0.index t (1 : Fin 2) * 16 + 1 * q.val = win3_4.index t (1 : Fin 2) * 16 + 1 * q.val; omega
  have h1 : iblk3 V c 1 t (ix2 p q) = V c main_v44 (((cfg3.win 4).blk t).view.emb (ix2 p q)) := by
    show V c main_v44 (((cfg3.win 1).blk t).view.emb (ix2 p q)) = _
    refine congrArg (V c main_v44) (funext fun a => Fin.ext ?_)
    match a with
    | ⟨0, _⟩ => show win3_1.index t (0 : Fin 2) * 4000 + 1 * p.val = win3_4.index t (0 : Fin 2) * 4000 + 1 * p.val; omega
    | ⟨1, _⟩ => show win3_1.index t (1 : Fin 2) * 16 + 1 * q.val = win3_4.index t (1 : Fin 2) * 16 + 1 * q.val; omega
  have h2 : iblk3 V c 2 t (ix2 p (0 : Fin 1)) = V c main_v12 (ix2 (⟨((((cfg3.win 4).blk t).view.emb (ix2 p q)) 0).val, ((((cfg3.win 4).blk t).view.emb (ix2 p q)) 0).isLt⟩ : Fin 100000) (0 : Fin 1)) := by
    show V c main_v12 (((cfg3.win 2).blk t).view.emb (ix2 p (0 : Fin 1))) = _
    refine congrArg (V c main_v12) (funext fun a => Fin.ext ?_)
    match a with
    | ⟨0, _⟩ => show win3_2.index t (0 : Fin 2) * 4000 + 1 * p.val = win3_4.index t (0 : Fin 2) * 4000 + 1 * p.val; omega
    | ⟨1, _⟩ => show win3_2.index t (1 : Fin 2) * 1 + 1 * 0 = 0; omega
  have h3 : iblk3 V c 3 t (ix2 (0 : Fin 1) q) = V c main_v58 (ix2 (0 : Fin 1) (⟨((((cfg3.win 4).blk t).view.emb (ix2 p q)) 1).val, ((((cfg3.win 4).blk t).view.emb (ix2 p q)) 1).isLt⟩ : Fin 16)) := by
    show V c main_v58 (((cfg3.win 3).blk t).view.emb (ix2 (0 : Fin 1) q)) = _
    refine congrArg (V c main_v58) (funext fun a => Fin.ext ?_)
    match a with
    | ⟨0, _⟩ => show win3_3.index t (0 : Fin 2) * 1 + 1 * 0 = 0; omega
    | ⟨1, _⟩ => show win3_3.index t (1 : Fin 2) * 16 + 1 * q.val = win3_4.index t (1 : Fin 2) * 16 + 1 * q.val; omega
  rw [h0, h1, h2, h3]

/-- An index of the output array is in point t's block iff each coordinate is in the block's range. -/
theorem mem_blk (t : Fin cfg3.N) (i : S100000x16.Idx) :
    i ∈ ((cfg3.win 4).blk t).view.set ↔ ∀ a : Fin 2, win3_4.index t a * S4000x16.size a ≤ (i a).val ∧ (i a).val < win3_4.index t a * S4000x16.size a + S4000x16.size a := by
  show i ∈ ((View.whole main_v59).slice (win3_4.rect t)).set ↔ _
  rw [View.set_slice_whole, Rect.mem_set_unit]
  exact Iff.rfl

/-- Row r lies in the block of point r / 4000: the blocks cover the output array. -/
theorem cover (i : S100000x16.Idx) : ∃ t : Fin cfg3.N, (cfg3.win 4).flush t = true ∧ i ∈ ((cfg3.win 4).blk t).view.set := by
  have hi0 : (i 0).val < 100000 := (i 0).isLt
  have hi1 : (i 1).val < 16 := (i 1).isLt
  obtain ⟨t, ht⟩ := idx_onto ⟨(i 0).val / 4000, by omega⟩
  have q0 : win3_4.index t (0 : Fin 2) = (i 0).val / 4000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 16 ≤ (i 1).val ∧ (i 1).val < win3_4.index t (1 : Fin 2) * 16 + 16; omega

/-- The output array after the region is the closing pass of the arrays the region is entered with. -/
theorem final (c : Dev nD) : (dat3 V c).arrAt 4 cfg3.N = close (V c main_v57) (V c main_v44) (V c main_v12) (V c main_v58) :=
  (dat3 V c).arrAt_eq_of_cover 4 (close (V c main_v57) (V c main_v44) (V c main_v12) (V c main_v58)) (fun t _ => flushed_eq V c t) cover

end Cert.KernelIdeal.Region3

end
-- ==== Proof.Region4.lean ====
/-
  Region 4: a [100000, 16] array times a [16, 1] weight matrix, 4000 rows per grid point, 25 points.

  Point t reads rows 4000 t … 4000 t + 3999 of the left array and the whole weight matrix, and writes the same rows of
  the product. Each entry (r, q) of the product is the sum over k of left (r, k) * weight (k, q): row r's block is
  point r / 4000, so the blocks cover the array and the array after the region is the product, whatever it held.
-/
import proofs.«143976_j37632503448199_1_alg».proof.Proof.Gen.KernelIdeal.Frame
import proofs.«143976_j37632503448199_1_alg».proof.Proof.Pay
import Idealize.ShloMosaic.Lib.ValueIdx
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents the region is entered with: a parameter
variable (V : (c : Dev nD) → (b : Ref sig .tc) → Buf (Elt Ideal) ((c : Thread nD τ).loc b))

theorem hz : (![0, 0] : Fin 2 → Nat) = fun _ => 0 := funext fun a => by fin_cases a <;> rfl

/-- The product, entry by entry. -/
def prod (X : S100000x16.Idx → Elt Ideal .f32) (Wt : S16x1.Idx → Elt Ideal .f32) : S100000x1.Idx → Elt Ideal .f32 :=
  fun i => ∑ k : Fin 16, X (ix2 (⟨(i 0).val, (i 0).isLt⟩ : Fin 100000) k) * Wt (ix2 k (⟨(i 1).val, (i 1).isLt⟩ : Fin 1))

/-- The windows' block indices over the grid: the row-blocked windows sit at block row t, the weight at (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every block row of the output is some point's. -/
theorem idx_onto : ∀ (q0 : Fin 25), ∃ t : Fin cfg4.N, win4_2.index t = ![q0.val, 0] :=
  (by decide +kernel : ∀ (q0 : Fin 25), ∃ t : Fin grid4.N, win4_2.index t = ![q0.val, 0])

/-- What point t writes back is block t of the product of the arrays the region is entered with. -/
theorem flushed_eq (c : Dev nD) (t : Fin cfg4.N) :
    (dat4 V c).flushed 2 t = ((cfg4.win 2).blk t).view.read (Elt Ideal) (prod (V c main_v59) (V c main_arg6)) := by
  show (cfg4.win 2).cut (grid4.coords t) ((dat4 V c).after 2 t) = _
  rw [after4_2]
  unfold out4_2
  rw [View.canon_unit_zero hz]
  simp only [View.ld_unit_zero (S := S4000x16) hz, View.ld_unit_zero (S := S16x1) hz]
  obtain ⟨e0, e1, e2, e3, e4, e5⟩ := idx_facts t
  refine funext fun (j : S4000x1.Idx) => ?_
  obtain ⟨p, q, rfl⟩ : ∃ (p : Fin 4000) (q : Fin 1), j = ix2 p q := ⟨j 0, j 1, eq_ix2 j⟩
  show k4_pay1 (iblk4 V c 0 t) (iblk4 V c 1 t) (ix2 p q) = prod (V c main_v59) (V c main_arg6) (((cfg4.win 2).blk t).view.emb (ix2 p q))
  refine (Payload.pay4 _ _ p q).trans ?_
  unfold prod
  refine Finset.sum_congr rfl fun k _ => ?_
  have h0 : iblk4 V c 0 t (ix2 p k) = V c main_v59 (ix2 (⟨((((cfg4.win 2).blk t).view.emb (ix2 p q)) 0).val, ((((cfg4.win 2).blk t).view.emb (ix2 p q)) 0).isLt⟩ : Fin 100000) k) := by
    show V c main_v59 (((cfg4.win 0).blk t).view.emb (ix2 p k)) = _
    refine congrArg (V c main_v59) (funext fun a => Fin.ext ?_)
    match a with
    | ⟨0, _⟩ => show win4_0.index t (0 : Fin 2) * 4000 + 1 * p.val = win4_2.index t (0 : Fin 2) * 4000 + 1 * p.val; omega
    | ⟨1, _⟩ => show win4_0.index t (1 : Fin 2) * 16 + 1 * k.val = k.val; omega
  have h1 : iblk4 V c 1 t (ix2 k q) = V c main_arg6 (ix2 k (⟨((((cfg4.win 2).blk t).view.emb (ix2 p q)) 1).val, ((((cfg4.win 2).blk t).view.emb (ix2 p q)) 1).isLt⟩ : Fin 1)) := by
    show V c main_arg6 (((cfg4.win 1).blk t).view.emb (ix2 k q)) = _
    refine congrArg (V c main_arg6) (funext fun a => Fin.ext ?_)
    match a with
    | ⟨0, _⟩ => show win4_1.index t (0 : Fin 2) * 16 + 1 * k.val = k.val; omega
    | ⟨1, _⟩ => show win4_1.index t (1 : Fin 2) * 1 + 1 * q.val = win4_2.index t (1 : Fin 2) * 1 + 1 * q.val; omega
  rw [h0, h1]

/-- An index of the output array is in point t's block iff each coordinate is in the block's range. -/
theorem mem_blk (t : Fin cfg4.N) (i : S100000x1.Idx) :
    i ∈ ((cfg4.win 2).blk t).view.set ↔ ∀ a : Fin 2, win4_2.index t a * S4000x1.size a ≤ (i a).val ∧ (i a).val < win4_2.index t a * S4000x1.size a + S4000x1.size a := by
  show i ∈ ((View.whole main_v60).slice (win4_2.rect t)).set ↔ _
  rw [View.set_slice_whole, Rect.mem_set_unit]
  exact Iff.rfl

/-- Row r lies in the block of point r / 4000: the blocks cover the output array. -/
theorem cover (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  obtain ⟨t, ht⟩ := idx_onto ⟨(i 0).val / 4000, by omega⟩
  have q0 : win4_2.index t (0 : Fin 2) = (i 0).val / 4000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 1 ≤ (i 1).val ∧ (i 1).val < win4_2.index t (1 : Fin 2) * 1 + 1; omega

/-- The output array after the region is the product of the arrays the region is entered with. -/
theorem final (c : Dev nD) : (dat4 V c).arrAt 2 cfg4.N = prod (V c main_v59) (V c main_arg6) :=
  (dat4 V c).arrAt_eq_of_cover 2 (prod (V c main_v59) (V c main_arg6)) (fun t _ => flushed_eq V c t) cover

end Cert.KernelIdeal.Region4

end
-- ==== Proof.Region5.lean ====
/-
  Region 5: the closing pass of a graph-convolution layer on [100000, 1] arrays, 4000 rows per grid point.

  Point t reads rows 4000 t … 4000 t + 3999 of the neighbour sums, of the projected features and of the column of
  the nodes' own weights, and the whole bias row, and writes the same rows of
  neighbour sum + feature * own weight + bias. Entry (r, q) depends on entry (r, q) of the first two
  arrays, on the weight of node r and on the bias of column q; row r's block is point r / 4000.
-/
import proofs.«143976_j37632503448199_1_alg».proof.Proof.Gen.KernelIdeal.Frame
import proofs.«143976_j37632503448199_1_alg».proof.Proof.Pay
import Idealize.ShloMosaic.Lib.ValueIdx
import Idealize.ShloMosaic.Lib.Pipeline.Value

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents the region is entered with: a parameter
variable (V : (c : Dev nD) → (b : Ref sig .tc) → Buf (Elt Ideal) ((c : Thread nD τ).loc b))

theorem hz : (![0, 0] : Fin 2 → Nat) = fun _ => 0 := funext fun a => by fin_cases a <;> rfl

/-- The closing pass, entry by entry: the weight is a column read at (r, 0), the bias a row read at (0, q). -/
def close (AGG H : S100000x1.Idx → Elt Ideal .f32) (D : S100000x1.Idx → Elt Ideal .f32) (B : S1x1.Idx → Elt Ideal .f32) :
    S100000x1.Idx → Elt Ideal .f32 :=
  fun i => AGG i + H i * D i + B (ix2 (0 : Fin 1) (0 : Fin 1))

/-- The windows' block indices over the grid: the row-blocked windows sit at block row t, the bias row at (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Every block row of the output is some point's. -/
theorem idx_onto : ∀ (q0 : Fin 25), ∃ t : Fin cfg5.N, win5_4.index t = ![q0.val, 0] :=
  (by decide +kernel : ∀ (q0 : Fin 25), ∃ t : Fin grid5.N, win5_4.index t = ![q0.val, 0])

/-- What point t writes back is block t of the closing pass of the arrays the region is entered with. -/
theorem flushed_eq (c : Dev nD) (t : Fin cfg5.N) :
    (dat5 V c).flushed 4 t = ((cfg5.win 4).blk t).view.read (Elt Ideal) (close (V c main_v72) (V c main_v60) (V c main_v12) (V c main_v73)) := by
  show (cfg5.win 4).cut (grid5.coords t) ((dat5 V c).after 4 t) = _
  rw [after5_4]
  unfold out5_4
  rw [View.canon_unit_zero hz]
  simp only [View.ld_unit_zero (S := S4000x1) hz, View.ld_unit_zero (S := S4000x1) hz, View.ld_unit_zero (S := S1x1) hz]
  obtain ⟨e0, e1, e2, e3, e4, e5, e6, e7, e8, e9⟩ := idx_facts t
  refine funext fun (j : S4000x1.Idx) => ?_
  obtain ⟨p, q, rfl⟩ : ∃ (p : Fin 4000) (q : Fin 1), j = ix2 p q := ⟨j 0, j 1, eq_ix2 j⟩
  show k5_pay1 (iblk5 V c 0 t) (iblk5 V c 1 t) (iblk5 V c 2 t) (iblk5 V c 3 t) (ix2 p q)
    = close (V c main_v72) (V c main_v60) (V c main_v12) (V c main_v73) (((cfg5.win 4).blk t).view.emb (ix2 p q))
  refine (Payload.pay5 _ _ _ _ p q).trans ?_
  unfold close
  have h0 : iblk5 V c 0 t (ix2 p q) = V c main_v72 (((cfg5.win 4).blk t).view.emb (ix2 p q)) := by
    show V c main_v72 (((cfg5.win 0).blk t).view.emb (ix2 p q)) = _
    refine congrArg (V c main_v72) (funext fun a => Fin.ext ?_)
    match a with
    | ⟨0, _⟩ => show win5_0.index t (0 : Fin 2) * 4000 + 1 * p.val = win5_4.index t (0 : Fin 2) * 4000 + 1 * p.val; omega
    | ⟨1, _⟩ => show win5_0.index t (1 : Fin 2) * 1 + 1 * q.val = win5_4.index t (1 : Fin 2) * 1 + 1 * q.val; omega
  have h1 : iblk5 V c 1 t (ix2 p q) = V c main_v60 (((cfg5.win 4).blk t).view.emb (ix2 p q)) := by
    show V c main_v60 (((cfg5.win 1).blk t).view.emb (ix2 p q)) = _
    refine congrArg (V c main_v60) (funext fun a => Fin.ext ?_)
    match a with
    | ⟨0, _⟩ => show win5_1.index t (0 : Fin 2) * 4000 + 1 * p.val = win5_4.index t (0 : Fin 2) * 4000 + 1 * p.val; omega
    | ⟨1, _⟩ => show win5_1.index t (1 : Fin 2) * 1 + 1 * q.val = win5_4.index t (1 : Fin 2) * 1 + 1 * q.val; omega
  have h2 : iblk5 V c 2 t (ix2 p q) = V c main_v12 (((cfg5.win 4).blk t).view.emb (ix2 p q)) := by
    show V c main_v12 (((cfg5.win 2).blk t).view.emb (ix2 p q)) = _
    refine congrArg (V c main_v12) (funext fun a => Fin.ext ?_)
    match a with
    | ⟨0, _⟩ => show win5_2.index t (0 : Fin 2) * 4000 + 1 * p.val = win5_4.index t (0 : Fin 2) * 4000 + 1 * p.val; omega
    | ⟨1, _⟩ => show win5_2.index t (1 : Fin 2) * 1 + 1 * q.val = win5_4.index t (1 : Fin 2) * 1 + 1 * q.val; omega
  have h3 : iblk5 V c 3 t (ix2 (0 : Fin 1) (0 : Fin 1)) = V c main_v73 (ix2 (0 : Fin 1) (0 : Fin 1)) := by
    show V c main_v73 (((cfg5.win 3).blk t).view.emb (ix2 (0 : Fin 1) (0 : Fin 1))) = _
    refine congrArg (V c main_v73) (funext fun a => Fin.ext ?_)
    match a with
    | ⟨0, _⟩ => show win5_3.index t (0 : Fin 2) * 1 + 1 * 0 = 0; omega
    | ⟨1, _⟩ => show win5_3.index t (1 : Fin 2) * 1 + 1 * 0 = 0; omega
  rw [h0, h1, h2, h3]

/-- An index of the output array is in point t's block iff each coordinate is in the block's range. -/
theorem mem_blk (t : Fin cfg5.N) (i : S100000x1.Idx) :
    i ∈ ((cfg5.win 4).blk t).view.set ↔ ∀ a : Fin 2, win5_4.index t a * S4000x1.size a ≤ (i a).val ∧ (i a).val < win5_4.index t a * S4000x1.size a + S4000x1.size a := by
  show i ∈ ((View.whole main_v74).slice (win5_4.rect t)).set ↔ _
  rw [View.set_slice_whole, Rect.mem_set_unit]
  exact Iff.rfl

/-- Row r lies in the block of point r / 4000: the blocks cover the output array. -/
theorem cover (i : S100000x1.Idx) : ∃ t : Fin cfg5.N, (cfg5.win 4).flush t = true ∧ i ∈ ((cfg5.win 4).blk t).view.set := by
  have hi0 : (i 0).val < 100000 := (i 0).isLt
  have hi1 : (i 1).val < 1 := (i 1).isLt
  obtain ⟨t, ht⟩ := idx_onto ⟨(i 0).val / 4000, by omega⟩
  have q0 : win5_4.index t (0 : Fin 2) = (i 0).val / 4000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 4000 ≤ (i 0).val ∧ (i 0).val < win5_4.index t (0 : Fin 2) * 4000 + 4000; omega
  | ⟨1, _⟩ => show win5_4.index t (1 : Fin 2) * 1 ≤ (i 1).val ∧ (i 1).val < win5_4.index t (1 : Fin 2) * 1 + 1; omega

/-- The output array after the region is the closing pass of the arrays the region is entered with. -/
theorem final (c : Dev nD) : (dat5 V c).arrAt 4 cfg5.N = close (V c main_v72) (V c main_v60) (V c main_v12) (V c main_v73) :=
  (dat5 V c).arrAt_eq_of_cover 4 (close (V c main_v72) (V c main_v60) (V c main_v12) (V c main_v73)) (fun t _ => flushed_eq V c t) cover

end Cert.KernelIdeal.Region5

end
-- ==== Proof.Bridge.lean ====
/-
  The reference's stages are the regions' whole-array functions.

  The reference computes each layer as: a product with the weight matrix; per edge, the source row of the product
  times the edge's weight; the sum of those rows into the target nodes; plus the product scaled by the node's own
  weight; plus the bias; cut below at zero after the first two layers. Its three products are the sum formulas of
  the kernel's three product regions, and its three tails are the closing passes of the other three, read entry
  by entry: the own-weight column is read at (r, 0) and the bias row at (0, q) on both sides.
-/
import proofs.«143976_j37632503448199_1_alg».proof.Proof.Gen.ReferenceIdeal.Read
import proofs.«143976_j37632503448199_1_alg».proof.Proof.Region0
import proofs.«143976_j37632503448199_1_alg».proof.Proof.Region1
import proofs.«143976_j37632503448199_1_alg».proof.Proof.Region2
import proofs.«143976_j37632503448199_1_alg».proof.Proof.Region3
import proofs.«143976_j37632503448199_1_alg».proof.Proof.Region4
import proofs.«143976_j37632503448199_1_alg».proof.Proof.Region5
import Idealize.ShloMosaic.Lib.ValueIdx
import Idealize.ShloMosaic.Lib.Pipeline.Value

set_option maxRecDepth 16384

noncomputable section

namespace Cert.Bridge

open Idealize.ShloMosaic Idealize.ShloMosaic.ValueIdx
open Cert.ReferenceIdeal Cert.ReferenceIdeal.Read

/-- The reference's product `val_main_v11` is the sum formula of region 0. -/
theorem prod0_eq (x0 : (⟨S100000x512, .f32⟩ : BufTy).Contents (Elt Ideal)) (x2 : (⟨S512x16, .f32⟩ : BufTy).Contents (Elt Ideal)) :
    Cert.KernelIdeal.Region0.prod x0 x2 = val_main_v11 (F := Ideal) x0 x2 := by
  funext i
  rw [val_main_v11_apply]
  unfold Cert.KernelIdeal.Region0.prod
  refine Finset.sum_congr rfl fun k _ => ?_
  have hl : ix2 (⟨(i 0).val, (i 0).isLt⟩ : Fin 100000) k = lidx_main_v11 i k :=
    funext fun a => match a with | ⟨0, _⟩ => rfl | ⟨1, _⟩ => rfl
  have hr : ix2 k (⟨(i 1).val, (i 1).isLt⟩ : Fin 16) = ridx_main_v11 i k :=
    funext fun a => match a with | ⟨0, _⟩ => rfl | ⟨1, _⟩ => rfl
  rw [hl, hr]

/-- The reference's `val_main_v48` is the closing pass of region 1 of its own stages. -/
theorem close1_eq (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) :
    Cert.KernelIdeal.Region1.close (val_main_v39 (F := Ideal) x0 x1 x2) (val_main_v11 (F := Ideal) x0 x2) (val_main_v41 (F := Ideal) x1) (val_main_v45 (F := Ideal) x3)
      = val_main_v48 (F := Ideal) x0 x1 x2 x3 := by
  funext i
  unfold Cert.KernelIdeal.Region1.close
  rw [val_main_v48_apply, val_main_v47_apply, val_main_v44_apply, val_main_v43_apply, val_main_v42_apply, val_main_v46_apply, val_main_call0_v0_apply, val_main_call0_cst_apply]
  have e1 : idx_main_v42 i = ix2 (⟨(i 0).val, (i 0).isLt⟩ : Fin 100000) (0 : Fin 1) :=
    funext fun a => match a with | ⟨0, _⟩ => rfl | ⟨1, _⟩ => rfl
  have e2 : idx_main_v46 i = ix2 (0 : Fin 1) (⟨(i 1).val, (i 1).isLt⟩ : Fin 16) :=
    funext fun a => match a with | ⟨0, _⟩ => rfl | ⟨1, _⟩ => rfl
  rw [e1, e2]
  rfl

/-- The reference's product `val_main_v49` is the sum formula of region 2. -/
theorem prod2_eq (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x16, .f32⟩ : BufTy).Contents (Elt Ideal)) :
    Cert.KernelIdeal.Region2.prod (val_main_v48 (F := Ideal) x0 x1 x2 x3) x4 = val_main_v49 (F := Ideal) x0 x1 x2 x3 x4 := by
  funext i
  rw [val_main_v49_apply]
  unfold Cert.KernelIdeal.Region2.prod
  refine Finset.sum_congr rfl fun k _ => ?_
  have hl : ix2 (⟨(i 0).val, (i 0).isLt⟩ : Fin 100000) k = lidx_main_v49 i k :=
    funext fun a => match a with | ⟨0, _⟩ => rfl | ⟨1, _⟩ => rfl
  have hr : ix2 k (⟨(i 1).val, (i 1).isLt⟩ : Fin 16) = ridx_main_v49 i k :=
    funext fun a => match a with | ⟨0, _⟩ => rfl | ⟨1, _⟩ => rfl
  rw [hl, hr]

/-- The reference's `val_main_v86` is the closing pass of region 3 of its own stages. -/
theorem close3_eq (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) :
    Cert.KernelIdeal.Region3.close (val_main_v77 (F := Ideal) x0 x1 x2 x3 x4) (val_main_v49 (F := Ideal) x0 x1 x2 x3 x4) (val_main_v79 (F := Ideal) x1) (val_main_v83 (F := Ideal) x5)
      = val_main_v86 (F := Ideal) x0 x1 x2 x3 x4 x5 := by
  funext i
  unfold Cert.KernelIdeal.Region3.close
  rw [val_main_v86_apply, val_main_v85_apply, val_main_v82_apply, val_main_v81_apply, val_main_v80_apply, val_main_v84_apply, val_main_call1_v0_apply, val_main_call1_cst_apply]
  have e1 : idx_main_v80 i = ix2 (⟨(i 0).val, (i 0).isLt⟩ : Fin 100000) (0 : Fin 1) :=
    funext fun a => match a with | ⟨0, _⟩ => rfl | ⟨1, _⟩ => rfl
  have e2 : idx_main_v84 i = ix2 (0 : Fin 1) (⟨(i 1).val, (i 1).isLt⟩ : Fin 16) :=
    funext fun a => match a with | ⟨0, _⟩ => rfl | ⟨1, _⟩ => rfl
  rw [e1, e2]
  rfl

/-- The reference's product `val_main_v87` is the sum formula of region 4. -/
theorem prod4_eq (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal)) :
    Cert.KernelIdeal.Region4.prod (val_main_v86 (F := Ideal) x0 x1 x2 x3 x4 x5) x6 = val_main_v87 (F := Ideal) x0 x1 x2 x3 x4 x5 x6 := by
  funext i
  rw [val_main_v87_apply]
  unfold Cert.KernelIdeal.Region4.prod
  refine Finset.sum_congr rfl fun k _ => ?_
  have hl : ix2 (⟨(i 0).val, (i 0).isLt⟩ : Fin 100000) k = lidx_main_v87 i k :=
    funext fun a => match a with | ⟨0, _⟩ => rfl | ⟨1, _⟩ => rfl
  have hr : ix2 k (⟨(i 1).val, (i 1).isLt⟩ : Fin 1) = ridx_main_v87 i k :=
    funext fun a => match a with | ⟨0, _⟩ => rfl | ⟨1, _⟩ => rfl
  rw [hl, hr]

/-- The reference's result is the closing pass of region 5 of its own stages (one column, no cut at zero). -/
theorem close5_eq (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal)) (x7 : (⟨S1, .f32⟩ : BufTy).Contents (Elt Ideal)) :
    Cert.KernelIdeal.Region5.close (val_main_v114 (F := Ideal) x0 x1 x2 x3 x4 x5 x6) (val_main_v87 (F := Ideal) x0 x1 x2 x3 x4 x5 x6)
        (val_main_v116 (F := Ideal) x1) (val_main_v119 (F := Ideal) x7)
      = val_main_v121 (F := Ideal) x0 x1 x2 x3 x4 x5 x6 x7 := by
  funext i
  unfold Cert.KernelIdeal.Region5.close
  rw [val_main_v121_apply, val_main_v118_apply, val_main_v117_apply, val_main_v120_apply]
  have e1 : idx_main_v120 i = ix2 (0 : Fin 1) (0 : Fin 1) :=
    funext fun a => match a with | ⟨0, _⟩ => rfl | ⟨1, _⟩ => rfl
  rw [e1]
  rfl

/-- The own-weight column is computed three times by the reference, the same way each time. -/
theorem col_eq_2 (x1 : (⟨S2x3200000, .i32⟩ : BufTy).Contents (Elt Ideal)) : val_main_v41 (F := Ideal) x1 = val_main_v79 (F := Ideal) x1 := rfl
theorem col_eq_3 (x1 : (⟨S2x3200000, .i32⟩ : BufTy).Contents (Elt Ideal)) : val_main_v41 (F := Ideal) x1 = val_main_v116 (F := Ideal) x1 := rfl

end Cert.Bridge

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.BoundA.lean ====
/-
  The buffers at the first two segment boundaries.

  Before region 0 the host computes, from the edge list: the source and target index vectors; the degree of each
  node (the number of edges into it, plus one) and its inverse square root; the own-weight column (the inverse
  square root squared); the edge weights (the product of the two endpoints' inverse square roots). These are the
  reference's own first stages, operation for operation; the own-weight column is cast to a column by the kernel
  and broadcast in dimensions by the reference, the same array. Region 0 then leaves the first product.
-/
import proofs.«143976_j37632503448199_1_alg».proof.Proof.Gen.KernelIdeal.Frame
import proofs.«143976_j37632503448199_1_alg».proof.Proof.Gen.ReferenceIdeal.Read
import proofs.«143976_j37632503448199_1_alg».proof.Proof.Region0
import proofs.«143976_j37632503448199_1_alg».proof.Proof.Bridge
import proofs.«143976_j37632503448199_1_alg».proof.Proof.LibColRow
import Idealize.ShloMosaic.Lib.StableHlo.Run

set_option maxRecDepth 16384

noncomputable section

namespace Cert.Boundary

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen
open Cert.ReferenceIdeal.Read

variable (m : (ℓ : Loc nD τ sig) → Buf (Elt Ideal) ℓ) (ρ : Dev nD → PrngReg)

/-- A buffer no operation of a host stretch writes holds after the stretch what it held before. -/
macro "host_keep" ops:ident : tactic => `(tactic| exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## After the first host stretch -/

theorem at1_arg0 (c : Dev nD) : W1 m ρ c (Proc.devRef .tc main_arg0) = m ((c : Thread nD τ).loc main_arg0) :=
  (show W1 m ρ c (Proc.devRef .tc main_arg0) = W0 m ρ c (Proc.devRef .tc main_arg0) by host_keep hostOps0).trans rfl

theorem at1_arg1 (c : Dev nD) : W1 m ρ c (Proc.devRef .tc main_arg1) = m ((c : Thread nD τ).loc main_arg1) :=
  (show W1 m ρ c (Proc.devRef .tc main_arg1) = W0 m ρ c (Proc.devRef .tc main_arg1) by host_keep hostOps0).trans rfl

theorem at1_arg2 (c : Dev nD) : W1 m ρ c (Proc.devRef .tc main_arg2) = m ((c : Thread nD τ).loc main_arg2) :=
  (show W1 m ρ c (Proc.devRef .tc main_arg2) = W0 m ρ c (Proc.devRef .tc main_arg2) by host_keep hostOps0).trans rfl

theorem at1_arg3 (c : Dev nD) : W1 m ρ c (Proc.devRef .tc main_arg3) = m ((c : Thread nD τ).loc main_arg3) :=
  (show W1 m ρ c (Proc.devRef .tc main_arg3) = W0 m ρ c (Proc.devRef .tc main_arg3) by host_keep hostOps0).trans rfl

theorem at1_arg4 (c : Dev nD) : W1 m ρ c (Proc.devRef .tc main_arg4) = m ((c : Thread nD τ).loc main_arg4) :=
  (show W1 m ρ c (Proc.devRef .tc main_arg4) = W0 m ρ c (Proc.devRef .tc main_arg4) by host_keep hostOps0).trans rfl

theorem at1_arg5 (c : Dev nD) : W1 m ρ c (Proc.devRef .tc main_arg5) = m ((c : Thread nD τ).loc main_arg5) :=
  (show W1 m ρ c (Proc.devRef .tc main_arg5) = W0 m ρ c (Proc.devRef .tc main_arg5) by host_keep hostOps0).trans rfl

theorem at1_arg6 (c : Dev nD) : W1 m ρ c (Proc.devRef .tc main_arg6) = m ((c : Thread nD τ).loc main_arg6) :=
  (show W1 m ρ c (Proc.devRef .tc main_arg6) = W0 m ρ c (Proc.devRef .tc main_arg6) by host_keep hostOps0).trans rfl

theorem at1_arg7 (c : Dev nD) : W1 m ρ c (Proc.devRef .tc main_arg7) = m ((c : Thread nD τ).loc main_arg7) :=
  (show W1 m ρ c (Proc.devRef .tc main_arg7) = W0 m ρ c (Proc.devRef .tc main_arg7) by host_keep hostOps0).trans rfl

theorem at1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp

  rfl

theorem at1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp

  rfl

theorem at1_v27 (c : Dev nD) : W1 m ρ c (Proc.devRef .tc main_v27) = val_main_v26 (F := Ideal) (m ((c : Thread nD τ).loc main_arg1)) := by
  show StableHlo.after hostOps0 (W0 m ρ c) (Proc.devRef .tc main_v27) = _
  after_results_simp

  rfl

theorem at1_v12 (c : Dev nD) : W1 m ρ c (Proc.devRef .tc main_v12) = val_main_v41 (F := Ideal) (m ((c : Thread nD τ).loc main_arg1)) := by
  show StableHlo.after hostOps0 (W0 m ρ c) (Proc.devRef .tc main_v12) = _
  after_results_simp

  refine (ValueIdx.shapeCast_col_eq_broadcastInDim (a := 100000) _ _ Cert.ReferenceIdeal.Facts₀.bcast_S100000_S100000x1_0).trans ?_
  rfl

/-! ## After region 0 -/

theorem at2_v28 (c : Dev nD) : W2 m ρ c (Proc.devRef .tc main_v28) = val_main_v11 (F := Ideal) (m ((c : Thread nD τ).loc main_arg0)) (m ((c : Thread nD τ).loc main_arg2)) := by
  refine (W2_arr m ρ c 2).trans ?_
  rw [Cert.KernelIdeal.Region0.final (V1 m ρ) c]
  show Cert.KernelIdeal.Region0.prod (W1 m ρ c (Proc.devRef .tc main_arg0)) (W1 m ρ c (Proc.devRef .tc main_arg2)) = _
  rw [at1_arg0, at1_arg2]
  exact Cert.Bridge.prod0_eq _ _

theorem at2_v1 (c : Dev nD) : W2 m ρ c (Proc.devRef .tc main_v1) = val_main_v1 (F := Ideal) (m ((c : Thread nD τ).loc main_arg1)) :=
  (W2_of_ne m ρ c main_v1 (by decide)).trans (at1_v1 m ρ c)

theorem at2_v3 (c : Dev nD) : W2 m ρ c (Proc.devRef .tc main_v3) = val_main_v3 (F := Ideal) (m ((c : Thread nD τ).loc main_arg1)) :=
  (W2_of_ne m ρ c main_v3 (by decide)).trans (at1_v3 m ρ c)

theorem at2_v27 (c : Dev nD) : W2 m ρ c (Proc.devRef .tc main_v27) = val_main_v26 (F := Ideal) (m ((c : Thread nD τ).loc main_arg1)) :=
  (W2_of_ne m ρ c main_v27 (by decide)).trans (at1_v27 m ρ c)

theorem at2_v12 (c : Dev nD) : W2 m ρ c (Proc.devRef .tc main_v12) = val_main_v41 (F := Ideal) (m ((c : Thread nD τ).loc main_arg1)) :=
  (W2_of_ne m ρ c main_v12 (by decide)).trans (at1_v12 m ρ c)

theorem at2_arg3 (c : Dev nD) : W2 m ρ c (Proc.devRef .tc main_arg3) = m ((c : Thread nD τ).loc main_arg3) :=
  (W2_of_ne m ρ c main_arg3 (by decide)).trans (at1_arg3 m ρ c)

theorem at2_arg4 (c : Dev nD) : W2 m ρ c (Proc.devRef .tc main_arg4) = m ((c : Thread nD τ).loc main_arg4) :=
  (W2_of_ne m ρ c main_arg4 (by decide)).trans (at1_arg4 m ρ c)

theorem at2_arg5 (c : Dev nD) : W2 m ρ c (Proc.devRef .tc main_arg5) = m ((c : Thread nD τ).loc main_arg5) :=
  (W2_of_ne m ρ c main_arg5 (by decide)).trans (at1_arg5 m ρ c)

theorem at2_arg6 (c : Dev nD) : W2 m ρ c (Proc.devRef .tc main_arg6) = m ((c : Thread nD τ).loc main_arg6) :=
  (W2_of_ne m ρ c main_arg6 (by decide)).trans (at1_arg6 m ρ c)

theorem at2_arg7 (c : Dev nD) : W2 m ρ c (Proc.devRef .tc main_arg7) = m ((c : Thread nD τ).loc main_arg7) :=
  (W2_of_ne m ρ c main_arg7 (by decide)).trans (at1_arg7 m ρ c)

end Cert.Boundary

end
-- ==== Proof.BoundC.lean ====
/-
  The buffers at the boundaries of the first layer's tail and of the second product.

  After region 0 the host gathers the product's rows at the edges' sources, scales them by the edge weights and sums
  them into the edges' targets; it casts the bias to a row (the reference broadcasts it in dimensions: the same
  array). Region 1 closes the layer, region 2 multiplies by the second weight matrix.
-/
import proofs.«143976_j37632503448199_1_alg».proof.Proof.BoundA
import proofs.«143976_j37632503448199_1_alg».proof.Proof.Region1
import proofs.«143976_j37632503448199_1_alg».proof.Proof.Region2
import Idealize.ShloMosaic.Lib.StableHlo.Run

set_option maxRecDepth 16384

noncomputable section

namespace Cert.Boundary

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen
open Cert.ReferenceIdeal.Read

variable (m : (ℓ : Loc nD τ sig) → Buf (Elt Ideal) ℓ) (ρ : Dev nD → PrngReg)

/-! ## After the second host stretch -/

theorem at3_v41 (c : Dev nD) : W3 m ρ c (Proc.devRef .tc main_v41) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v41) = _
  after_results_simp
  rw [at2_v28, at2_v1, at2_v3, at2_v27]
  rfl

theorem at3_v42 (c : Dev nD) : W3 m ρ c (Proc.devRef .tc main_v42) = val_main_v45 (F := Ideal) (m ((c : Thread nD τ).loc main_arg3)) := by
  show StableHlo.after hostOps1 (W2 m ρ c) (Proc.devRef .tc main_v42) = _
  after_results_simp
  rw [at2_arg3]
  refine (ValueIdx.shapeCast_row_eq_broadcastInDim (b := 16) _ _ Cert.ReferenceIdeal.Facts₀.bcast_S16_S1x16_1).trans ?_
  rfl

theorem at3_v28 (c : Dev nD) : W3 m ρ c (Proc.devRef .tc main_v28) = val_main_v11 (F := Ideal) (m ((c : Thread nD τ).loc main_arg0)) (m ((c : Thread nD τ).loc main_arg2)) :=
  (show W3 m ρ c (Proc.devRef .tc main_v28) = W2 m ρ c (Proc.devRef .tc main_v28) by host_keep hostOps1).trans (at2_v28 m ρ c)

theorem at3_v12 (c : Dev nD) : W3 m ρ c (Proc.devRef .tc main_v12) = val_main_v41 (F := Ideal) (m ((c : Thread nD τ).loc main_arg1)) :=
  (show W3 m ρ c (Proc.devRef .tc main_v12) = W2 m ρ c (Proc.devRef .tc main_v12) by host_keep hostOps1).trans (at2_v12 m ρ c)

theorem at3_v1 (c : Dev nD) : W3 m ρ c (Proc.devRef .tc main_v1) = val_main_v1 (F := Ideal) (m ((c : Thread nD τ).loc main_arg1)) :=
  (show W3 m ρ c (Proc.devRef .tc main_v1) = W2 m ρ c (Proc.devRef .tc main_v1) by host_keep hostOps1).trans (at2_v1 m ρ c)

theorem at3_v3 (c : Dev nD) : W3 m ρ c (Proc.devRef .tc main_v3) = val_main_v3 (F := Ideal) (m ((c : Thread nD τ).loc main_arg1)) :=
  (show W3 m ρ c (Proc.devRef .tc main_v3) = W2 m ρ c (Proc.devRef .tc main_v3) by host_keep hostOps1).trans (at2_v3 m ρ c)

theorem at3_v27 (c : Dev nD) : W3 m ρ c (Proc.devRef .tc main_v27) = val_main_v26 (F := Ideal) (m ((c : Thread nD τ).loc main_arg1)) :=
  (show W3 m ρ c (Proc.devRef .tc main_v27) = W2 m ρ c (Proc.devRef .tc main_v27) by host_keep hostOps1).trans (at2_v27 m ρ c)

theorem at3_arg4 (c : Dev nD) : W3 m ρ c (Proc.devRef .tc main_arg4) = m ((c : Thread nD τ).loc main_arg4) :=
  (show W3 m ρ c (Proc.devRef .tc main_arg4) = W2 m ρ c (Proc.devRef .tc main_arg4) by host_keep hostOps1).trans (at2_arg4 m ρ c)

theorem at3_arg5 (c : Dev nD) : W3 m ρ c (Proc.devRef .tc main_arg5) = m ((c : Thread nD τ).loc main_arg5) :=
  (show W3 m ρ c (Proc.devRef .tc main_arg5) = W2 m ρ c (Proc.devRef .tc main_arg5) by host_keep hostOps1).trans (at2_arg5 m ρ c)

theorem at3_arg6 (c : Dev nD) : W3 m ρ c (Proc.devRef .tc main_arg6) = m ((c : Thread nD τ).loc main_arg6) :=
  (show W3 m ρ c (Proc.devRef .tc main_arg6) = W2 m ρ c (Proc.devRef .tc main_arg6) by host_keep hostOps1).trans (at2_arg6 m ρ c)

theorem at3_arg7 (c : Dev nD) : W3 m ρ c (Proc.devRef .tc main_arg7) = m ((c : Thread nD τ).loc main_arg7) :=
  (show W3 m ρ c (Proc.devRef .tc main_arg7) = W2 m ρ c (Proc.devRef .tc main_arg7) by host_keep hostOps1).trans (at2_arg7 m ρ c)

/-! ## After region 1 -/

theorem at4_v43 (c : Dev nD) : W4 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ?_
  rw [Cert.KernelIdeal.Region1.final (V3 m ρ) c]
  show Cert.KernelIdeal.Region1.close (W3 m ρ c (Proc.devRef .tc main_v41)) (W3 m ρ c (Proc.devRef .tc main_v28)) (W3 m ρ c (Proc.devRef .tc main_v12)) (W3 m ρ c (Proc.devRef .tc main_v42)) = _
  rw [at3_v41, at3_v28, at3_v12, at3_v42]
  exact Cert.Bridge.close1_eq _ _ _ _

theorem at4_v12 (c : Dev nD) : W4 m ρ c (Proc.devRef .tc main_v12) = val_main_v41 (F := Ideal) (m ((c : Thread nD τ).loc main_arg1)) :=
  ((W4_arr m ρ c 2).trans (((dat1 (V3 m ρ) c).arrAt_in 2 rfl _).trans (A_eq1 (V3 m ρ) c 2))).trans (at3_v12 m ρ c)

theorem at4_v1 (c : Dev nD) : W4 m ρ c (Proc.devRef .tc main_v1) = val_main_v1 (F := Ideal) (m ((c : Thread nD τ).loc main_arg1)) :=
  (W4_of_ne m ρ c main_v1 (by decide)).trans (at3_v1 m ρ c)

theorem at4_v3 (c : Dev nD) : W4 m ρ c (Proc.devRef .tc main_v3) = val_main_v3 (F := Ideal) (m ((c : Thread nD τ).loc main_arg1)) :=
  (W4_of_ne m ρ c main_v3 (by decide)).trans (at3_v3 m ρ c)

theorem at4_v27 (c : Dev nD) : W4 m ρ c (Proc.devRef .tc main_v27) = val_main_v26 (F := Ideal) (m ((c : Thread nD τ).loc main_arg1)) :=
  (W4_of_ne m ρ c main_v27 (by decide)).trans (at3_v27 m ρ c)

theorem at4_arg4 (c : Dev nD) : W4 m ρ c (Proc.devRef .tc main_arg4) = m ((c : Thread nD τ).loc main_arg4) :=
  (W4_of_ne m ρ c main_arg4 (by decide)).trans (at3_arg4 m ρ c)

theorem at4_arg5 (c : Dev nD) : W4 m ρ c (Proc.devRef .tc main_arg5) = m ((c : Thread nD τ).loc main_arg5) :=
  (W4_of_ne m ρ c main_arg5 (by decide)).trans (at3_arg5 m ρ c)

theorem at4_arg6 (c : Dev nD) : W4 m ρ c (Proc.devRef .tc main_arg6) = m ((c : Thread nD τ).loc main_arg6) :=
  (W4_of_ne m ρ c main_arg6 (by decide)).trans (at3_arg6 m ρ c)

theorem at4_arg7 (c : Dev nD) : W4 m ρ c (Proc.devRef .tc main_arg7) = m ((c : Thread nD τ).loc main_arg7) :=
  (W4_of_ne m ρ c main_arg7 (by decide)).trans (at3_arg7 m ρ c)

/-! ## After region 2 -/

theorem at5_v44 (c : Dev nD) : W5 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  rw [Cert.KernelIdeal.Region2.final (V4 m ρ) c]
  show Cert.KernelIdeal.Region2.prod (W4 m ρ c (Proc.devRef .tc main_v43)) (W4 m ρ c (Proc.devRef .tc main_arg4)) = _
  rw [at4_v43, at4_arg4]
  exact Cert.Bridge.prod2_eq _ _ _ _ _

theorem at5_v1 (c : Dev nD) : W5 m ρ c (Proc.devRef .tc main_v1) = val_main_v1 (F := Ideal) (m ((c : Thread nD τ).loc main_arg1)) :=
  (W5_of_ne m ρ c main_v1 (by decide)).trans (at4_v1 m ρ c)

theorem at5_v3 (c : Dev nD) : W5 m ρ c (Proc.devRef .tc main_v3) = val_main_v3 (F := Ideal) (m ((c : Thread nD τ).loc main_arg1)) :=
  (W5_of_ne m ρ c main_v3 (by decide)).trans (at4_v3 m ρ c)

theorem at5_v27 (c : Dev nD) : W5 m ρ c (Proc.devRef .tc main_v27) = val_main_v26 (F := Ideal) (m ((c : Thread nD τ).loc main_arg1)) :=
  (W5_of_ne m ρ c main_v27 (by decide)).trans (at4_v27 m ρ c)

theorem at5_v12 (c : Dev nD) : W5 m ρ c (Proc.devRef .tc main_v12) = val_main_v41 (F := Ideal) (m ((c : Thread nD τ).loc main_arg1)) :=
  (W5_of_ne m ρ c main_v12 (by decide)).trans (at4_v12 m ρ c)

theorem at5_arg5 (c : Dev nD) : W5 m ρ c (Proc.devRef .tc main_arg5) = m ((c : Thread nD τ).loc main_arg5) :=
  (W5_of_ne m ρ c main_arg5 (by decide)).trans (at4_arg5 m ρ c)

theorem at5_arg6 (c : Dev nD) : W5 m ρ c (Proc.devRef .tc main_arg6) = m ((c : Thread nD τ).loc main_arg6) :=
  (W5_of_ne m ρ c main_arg6 (by decide)).trans (at4_arg6 m ρ c)

theorem at5_arg7 (c : Dev nD) : W5 m ρ c (Proc.devRef .tc main_arg7) = m ((c : Thread nD τ).loc main_arg7) :=
  (W5_of_ne m ρ c main_arg7 (by decide)).trans (at4_arg7 m ρ c)

end Cert.Boundary

end
-- ==== Proof.BoundF.lean ====
/-
  The buffers at the boundaries of the second layer's tail and of the third product: the second layer repeats the
  first on the first layer's result, and region 4 multiplies by the last weight matrix (one column).
-/
import proofs.«143976_j37632503448199_1_alg».proof.Proof.BoundC
import proofs.«143976_j37632503448199_1_alg».proof.Proof.Region3
import proofs.«143976_j37632503448199_1_alg».proof.Proof.Region4
import Idealize.ShloMosaic.Lib.StableHlo.Run

set_option maxRecDepth 16384

noncomputable section

namespace Cert.Boundary

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen
open Cert.ReferenceIdeal.Read

variable (m : (ℓ : Loc nD τ sig) → Buf (Elt Ideal) ℓ) (ρ : Dev nD → PrngReg)

/-! ## After the third host stretch -/

theorem at6_v57 (c : Dev nD) : W6 m ρ c (Proc.devRef .tc main_v57) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v57) = _
  after_results_simp
  rw [at5_v44, at5_v1, at5_v3, at5_v27]
  rfl

theorem at6_v58 (c : Dev nD) : W6 m ρ c (Proc.devRef .tc main_v58) = val_main_v83 (F := Ideal) (m ((c : Thread nD τ).loc main_arg5)) := by
  show StableHlo.after hostOps3 (W5 m ρ c) (Proc.devRef .tc main_v58) = _
  after_results_simp
  rw [at5_arg5]
  refine (ValueIdx.shapeCast_row_eq_broadcastInDim (b := 16) _ _ Cert.ReferenceIdeal.Facts₀.bcast_S16_S1x16_1).trans ?_
  rfl

theorem at6_v44 (c : Dev nD) : W6 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (show W6 m ρ c (Proc.devRef .tc main_v44) = W5 m ρ c (Proc.devRef .tc main_v44) by host_keep hostOps3).trans (at5_v44 m ρ c)

theorem at6_v12 (c : Dev nD) : W6 m ρ c (Proc.devRef .tc main_v12) = val_main_v41 (F := Ideal) (m ((c : Thread nD τ).loc main_arg1)) :=
  (show W6 m ρ c (Proc.devRef .tc main_v12) = W5 m ρ c (Proc.devRef .tc main_v12) by host_keep hostOps3).trans (at5_v12 m ρ c)

theorem at6_v1 (c : Dev nD) : W6 m ρ c (Proc.devRef .tc main_v1) = val_main_v1 (F := Ideal) (m ((c : Thread nD τ).loc main_arg1)) :=
  (show W6 m ρ c (Proc.devRef .tc main_v1) = W5 m ρ c (Proc.devRef .tc main_v1) by host_keep hostOps3).trans (at5_v1 m ρ c)

theorem at6_v3 (c : Dev nD) : W6 m ρ c (Proc.devRef .tc main_v3) = val_main_v3 (F := Ideal) (m ((c : Thread nD τ).loc main_arg1)) :=
  (show W6 m ρ c (Proc.devRef .tc main_v3) = W5 m ρ c (Proc.devRef .tc main_v3) by host_keep hostOps3).trans (at5_v3 m ρ c)

theorem at6_v27 (c : Dev nD) : W6 m ρ c (Proc.devRef .tc main_v27) = val_main_v26 (F := Ideal) (m ((c : Thread nD τ).loc main_arg1)) :=
  (show W6 m ρ c (Proc.devRef .tc main_v27) = W5 m ρ c (Proc.devRef .tc main_v27) by host_keep hostOps3).trans (at5_v27 m ρ c)

theorem at6_arg6 (c : Dev nD) : W6 m ρ c (Proc.devRef .tc main_arg6) = m ((c : Thread nD τ).loc main_arg6) :=
  (show W6 m ρ c (Proc.devRef .tc main_arg6) = W5 m ρ c (Proc.devRef .tc main_arg6) by host_keep hostOps3).trans (at5_arg6 m ρ c)

theorem at6_arg7 (c : Dev nD) : W6 m ρ c (Proc.devRef .tc main_arg7) = m ((c : Thread nD τ).loc main_arg7) :=
  (show W6 m ρ c (Proc.devRef .tc main_arg7) = W5 m ρ c (Proc.devRef .tc main_arg7) by host_keep hostOps3).trans (at5_arg7 m ρ c)

/-! ## After region 3 -/

theorem at7_v59 (c : Dev nD) : W7 m ρ c (Proc.devRef .tc main_v59) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ?_
  rw [Cert.KernelIdeal.Region3.final (V6 m ρ) c]
  show Cert.KernelIdeal.Region3.close (W6 m ρ c (Proc.devRef .tc main_v57)) (W6 m ρ c (Proc.devRef .tc main_v44)) (W6 m ρ c (Proc.devRef .tc main_v12)) (W6 m ρ c (Proc.devRef .tc main_v58)) = _
  rw [at6_v57, at6_v44, at6_v12, at6_v58, Cert.Bridge.col_eq_2]
  exact Cert.Bridge.close3_eq _ _ _ _ _ _

theorem at7_v12 (c : Dev nD) : W7 m ρ c (Proc.devRef .tc main_v12) = val_main_v41 (F := Ideal) (m ((c : Thread nD τ).loc main_arg1)) :=
  ((W7_arr m ρ c 2).trans (((dat3 (V6 m ρ) c).arrAt_in 2 rfl _).trans (A_eq3 (V6 m ρ) c 2))).trans (at6_v12 m ρ c)

theorem at7_v1 (c : Dev nD) : W7 m ρ c (Proc.devRef .tc main_v1) = val_main_v1 (F := Ideal) (m ((c : Thread nD τ).loc main_arg1)) :=
  (W7_of_ne m ρ c main_v1 (by decide)).trans (at6_v1 m ρ c)

theorem at7_v3 (c : Dev nD) : W7 m ρ c (Proc.devRef .tc main_v3) = val_main_v3 (F := Ideal) (m ((c : Thread nD τ).loc main_arg1)) :=
  (W7_of_ne m ρ c main_v3 (by decide)).trans (at6_v3 m ρ c)

theorem at7_v27 (c : Dev nD) : W7 m ρ c (Proc.devRef .tc main_v27) = val_main_v26 (F := Ideal) (m ((c : Thread nD τ).loc main_arg1)) :=
  (W7_of_ne m ρ c main_v27 (by decide)).trans (at6_v27 m ρ c)

theorem at7_arg6 (c : Dev nD) : W7 m ρ c (Proc.devRef .tc main_arg6) = m ((c : Thread nD τ).loc main_arg6) :=
  (W7_of_ne m ρ c main_arg6 (by decide)).trans (at6_arg6 m ρ c)

theorem at7_arg7 (c : Dev nD) : W7 m ρ c (Proc.devRef .tc main_arg7) = m ((c : Thread nD τ).loc main_arg7) :=
  (W7_of_ne m ρ c main_arg7 (by decide)).trans (at6_arg7 m ρ c)

/-! ## After region 4 -/

theorem at8_v60 (c : Dev nD) : W8 m ρ c (Proc.devRef .tc main_v60) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  rw [Cert.KernelIdeal.Region4.final (V7 m ρ) c]
  show Cert.KernelIdeal.Region4.prod (W7 m ρ c (Proc.devRef .tc main_v59)) (W7 m ρ c (Proc.devRef .tc main_arg6)) = _
  rw [at7_v59, at7_arg6]
  exact Cert.Bridge.prod4_eq _ _ _ _ _ _ _

theorem at8_v1 (c : Dev nD) : W8 m ρ c (Proc.devRef .tc main_v1) = val_main_v1 (F := Ideal) (m ((c : Thread nD τ).loc main_arg1)) :=
  (W8_of_ne m ρ c main_v1 (by decide)).trans (at7_v1 m ρ c)

theorem at8_v3 (c : Dev nD) : W8 m ρ c (Proc.devRef .tc main_v3) = val_main_v3 (F := Ideal) (m ((c : Thread nD τ).loc main_arg1)) :=
  (W8_of_ne m ρ c main_v3 (by decide)).trans (at7_v3 m ρ c)

theorem at8_v27 (c : Dev nD) : W8 m ρ c (Proc.devRef .tc main_v27) = val_main_v26 (F := Ideal) (m ((c : Thread nD τ).loc main_arg1)) :=
  (W8_of_ne m ρ c main_v27 (by decide)).trans (at7_v27 m ρ c)

theorem at8_v12 (c : Dev nD) : W8 m ρ c (Proc.devRef .tc main_v12) = val_main_v41 (F := Ideal) (m ((c : Thread nD τ).loc main_arg1)) :=
  (W8_of_ne m ρ c main_v12 (by decide)).trans (at7_v12 m ρ c)

theorem at8_arg7 (c : Dev nD) : W8 m ρ c (Proc.devRef .tc main_arg7) = m ((c : Thread nD τ).loc main_arg7) :=
  (W8_of_ne m ρ c main_arg7 (by decide)).trans (at7_arg7 m ρ c)

end Cert.Boundary

end
-- ==== Proof.BoundI.lean ====
/-
  The last layer's tail: the third neighbour sum on one column, the bias cast to a [1, 1] array, and region 5's closing
  pass without a cut at zero. What region 5 leaves is the reference's result.
-/
import proofs.«143976_j37632503448199_1_alg».proof.Proof.BoundF
import proofs.«143976_j37632503448199_1_alg».proof.Proof.Region5
import Idealize.ShloMosaic.Lib.StableHlo.Run

set_option maxRecDepth 16384

noncomputable section

namespace Cert.Boundary

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen
open Cert.ReferenceIdeal.Read

variable (m : (ℓ : Loc nD τ sig) → Buf (Elt Ideal) ℓ) (ρ : Dev nD → PrngReg)

/-! ## After the last host stretch -/

theorem at9_v72 (c : Dev nD) : W9 m ρ c (Proc.devRef .tc main_v72) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v72) = _
  after_results_simp
  rw [at8_v60, at8_v1, at8_v3, at8_v27]
  rfl

theorem at9_v73 (c : Dev nD) : W9 m ρ c (Proc.devRef .tc main_v73) = val_main_v119 (F := Ideal) (m ((c : Thread nD τ).loc main_arg7)) := by
  show StableHlo.after hostOps5 (W8 m ρ c) (Proc.devRef .tc main_v73) = _
  after_results_simp
  rw [at8_arg7]
  refine (ValueIdx.shapeCast_row_eq_broadcastInDim (b := 1) _ _ Cert.ReferenceIdeal.Facts₀.bcast_S1_S1x1_1).trans ?_
  rfl

theorem at9_v60 (c : Dev nD) : W9 m ρ c (Proc.devRef .tc main_v60) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (show W9 m ρ c (Proc.devRef .tc main_v60) = W8 m ρ c (Proc.devRef .tc main_v60) by host_keep hostOps5).trans (at8_v60 m ρ c)

theorem at9_v12 (c : Dev nD) : W9 m ρ c (Proc.devRef .tc main_v12) = val_main_v41 (F := Ideal) (m ((c : Thread nD τ).loc main_arg1)) :=
  (show W9 m ρ c (Proc.devRef .tc main_v12) = W8 m ρ c (Proc.devRef .tc main_v12) by host_keep hostOps5).trans (at8_v12 m ρ c)

/-! ## After region 5: the result -/

theorem at10_v74 (c : Dev nD) : W10 m ρ c (Proc.devRef .tc main_v74) = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 4).trans ?_
  rw [Cert.KernelIdeal.Region5.final (V9 m ρ) c]
  show Cert.KernelIdeal.Region5.close (W9 m ρ c (Proc.devRef .tc main_v72)) (W9 m ρ c (Proc.devRef .tc main_v60)) (W9 m ρ c (Proc.devRef .tc main_v12)) (W9 m ρ c (Proc.devRef .tc main_v73)) = _
  rw [at9_v72, at9_v60, at9_v12, at9_v73, Cert.Bridge.col_eq_3]
  exact Cert.Bridge.close5_eq _ _ _ _ _ _ _ _

end Cert.Boundary

end
-- ==== Proof.lean ====
/-
  A three-layer graph convolution network on 100000 nodes and 3200000 edges, as six pipelined kernels among host
  gather / scatter-add stretches, against its jnp reference.

  Each layer is: the product of the node features with the layer's weight matrix; for every edge the source node's
  row of the product, scaled by the edge's weight (the product of the two endpoints' inverse square-root degrees);
  the sum of those rows into the edge's target node; plus the node's own row scaled by its inverse degree; plus the
  bias; cut below at zero after the first two layers. The kernel computes the product and the closing pass
  (neighbour sum + own row * own weight + bias, cut at zero) in Pallas regions over 4000-row blocks and leaves the
  gather and the scatter-add to the host; the reference does everything on the host. Both sides add and multiply in
  the same arrangement, so at the extended reals the two results agree operation by operation: a region's product is
  the host's product (the same finite sum; narrowing to bf16 is the identity), a region's closing pass is the host's
  chain of broadcasts, sums and the maximum with zero read at an entry, and the gathers and scatter-adds are the same
  host operations applied to equal arrays. No law of arithmetic beyond reading each operation at an entry is used, and the finiteness of the inputs is
  never opened.
-/
import proofs.«143976_j37632503448199_1_alg».proof.Defs
import proofs.«143976_j37632503448199_1_alg».proof.Proof.Gen.Kernel
import proofs.«143976_j37632503448199_1_alg».proof.Proof.Gen.Kernel.Frame
import proofs.«143976_j37632503448199_1_alg».proof.Proof.Gen.KernelIdeal
import proofs.«143976_j37632503448199_1_alg».proof.Proof.Gen.KernelIdeal.Frame
import proofs.«143976_j37632503448199_1_alg».proof.Proof.Gen.ReferenceIdeal
import proofs.«143976_j37632503448199_1_alg».proof.Proof.Gen.Pre_finite_inputs
import proofs.«143976_j37632503448199_1_alg».proof.Proof.Gen.ReferenceIdeal.Run
import proofs.«143976_j37632503448199_1_alg».proof.Proof.Gen.ReferenceIdeal.Read
import proofs.«143976_j37632503448199_1_alg».proof.Proof.KernelRun
import proofs.«143976_j37632503448199_1_alg».proof.Proof.BoundI
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a line of host operations: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the reference's last stage of the argument arrays in their result buffer: the
    kernel's last boundary contents at the result buffer were computed stage by stage to be that stage, and the
    reference's run states it. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.W10 m ρ c (Proc.devRef .tc Cert.KernelIdeal.main_v74), Cert.KernelIdeal.RunNamed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v121_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Boundary.at10_v74 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
